-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1200000 : Shape := ⟨2, ![2, 1200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S128x64 .f32) (main_arg8 : FVec F S64 .f32) (main_arg9 : FVec F S64x1 .f32) (main_arg10 : FVec F S1 .f32) (main_arg11 : FVec F S64x1 .f32) (main_arg12 : FVec F S1 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S64 .f32) (main_arg5 : FVec F S128x64 .f32) (main_arg6 : FVec F S64 .f32) (main_arg7 : FVec F S128x64 .f32) (main_arg8 : FVec F S64 .f32) (main_arg9 : FVec F S64x1 .f32) (main_arg10 : FVec F S1 .f32) (main_arg11 : FVec F S64x1 .f32) (main_arg12 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x128 .f32) (main_arg1 : FVec F S128x64 .f32) (main_arg2 : FVec F S64 .f32) (main_arg3 : FVec F S128x64 .f32) (main_arg4 : FVec F S64 .f32) (main_arg5 : FVec F S128x64 .f32) (main_arg6 : FVec F S64 .f32) (main_arg7 : FVec F S128x64 .f32) (main_arg8 : FVec F S64 .f32) (main_arg9 : FVec F S64x1 .f32) (main_arg10 : FVec F S1 .f32) (main_arg11 : FVec F S64x1 .f32) (main_arg12 : FVec F S1 .f32) (main_arg13 : IVec S2x1200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_v13 main_v16
-- ==== Kernel.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1200000 : Shape := ⟨2, ![2, 1200000]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x64 : Shape := ⟨2, ![100000, 64]⟩
abbrev S10000x128 : Shape := ⟨2, ![10000, 128]⟩
abbrev S10000x64 : Shape := ⟨2, ![10000, 64]⟩
abbrev S1x64 : Shape := ⟨2, ![1, 64]⟩
abbrev S1200000x64 : Shape := ⟨2, ![1200000, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 124
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S64x1, .f32⟩
  | .hbm, ⟨12, _⟩ => ⟨S1, .f32⟩
  | .hbm, ⟨13, _⟩ => ⟨S2x1200000, .i32⟩
  | .hbm, ⟨14, _⟩ => ⟨S1x1200000, .i32⟩
  | .hbm, ⟨15, _⟩ => ⟨S1200000, .i32⟩
  | .hbm, ⟨16, _⟩ => ⟨S1x1200000, .i32⟩
  | .hbm, ⟨17, _⟩ => ⟨S1200000, .i32⟩
  | .hbm, ⟨18, _⟩ => ⟨S_, .f32⟩
  | .hbm, ⟨19, _⟩ => ⟨S1200000, .f32⟩
  | .hbm, ⟨20, _⟩ => ⟨S_, .f32⟩
  | .hbm, ⟨21, _⟩ => ⟨S100000, .f32⟩
  | .hbm, ⟨22, _⟩ => ⟨S1200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000, .f32⟩
  | .hbm, ⟨53, _⟩ => ⟨S1200000, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1200000, .i32⟩
  | .hbm, ⟨58, _⟩ => ⟨S1200000, .i1⟩
  | .hbm, ⟨59, _⟩ => ⟨S_, .i32⟩
  | .hbm, ⟨60, _⟩ => ⟨S1200000, .i32⟩
  | .hbm, ⟨61, _⟩ => ⟨S1200000, .i32⟩
  | .hbm, ⟨62, _⟩ => ⟨S1200000, .i32⟩
  | .hbm, ⟨63, _⟩ => ⟨S1200000x1, .i32⟩
  | .hbm, ⟨64, _⟩ => ⟨S1200000x64, .f32⟩
  | .hbm, ⟨65, _⟩ => ⟨S1200000x1, .f32⟩
  | .hbm, ⟨66, _⟩ => ⟨S1200000x64, .f32⟩
  | .hbm, ⟨67, _⟩ => ⟨S1200000x64, .f32⟩
  | .hbm, ⟨68, _⟩ => ⟨S_, .f32⟩
  | .hbm, ⟨69, _⟩ => ⟨S100000x64, .f32⟩
  | .hbm, ⟨70, _⟩ => ⟨S1200000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S100000x128, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1200000, .i32⟩
  | .hbm, ⟨83, _⟩ => ⟨S1200000, .i1⟩
  | .hbm, ⟨84, _⟩ => ⟨S_, .i32⟩
  | .hbm, ⟨85, _⟩ => ⟨S1200000, .i32⟩
  | .hbm, ⟨86, _⟩ => ⟨S1200000, .i32⟩
  | .hbm, ⟨87, _⟩ => ⟨S1200000, .i32⟩
  | .hbm, ⟨88, _⟩ => ⟨S1200000x1, .i32⟩
  | .hbm, ⟨89, _⟩ => ⟨S1200000x64, .f32⟩
  | .hbm, ⟨90, _⟩ => ⟨S1200000x1, .f32⟩
  | .hbm, ⟨91, _⟩ => ⟨S1200000x64, .f32⟩
  | .hbm, ⟨92, _⟩ => ⟨S1200000x64, .f32⟩
  | .hbm, ⟨93, _⟩ => ⟨S_, .f32⟩
  | .hbm, ⟨94, _⟩ => ⟨S100000x64, .f32⟩
  | .hbm, ⟨95, _⟩ => ⟨S1200000x1, .i32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x1, .f32⟩
  | .hbm, ⟨104, _⟩ => ⟨S100000x1, .f32⟩
  | .hbm, ⟨105, _⟩ => ⟨S_, .i32⟩
  | .hbm, ⟨106, _⟩ => ⟨S1200000, .i32⟩
  | .hbm, ⟨107, _⟩ => ⟨S1200000, .i1⟩
  | .hbm, ⟨108, _⟩ => ⟨S_, .i32⟩
  | .hbm, ⟨109, _⟩ => ⟨S1200000, .i32⟩
  | .hbm, ⟨110, _⟩ => ⟨S1200000, .i32⟩
  | .hbm, ⟨111, _⟩ => ⟨S1200000, .i32⟩
  | .hbm, ⟨112, _⟩ => ⟨S1200000x1, .i32⟩
  | .hbm, ⟨113, _⟩ => ⟨S1200000x1, .f32⟩
  | .hbm, ⟨114, _⟩ => ⟨S1200000x1, .f32⟩
  | .hbm, ⟨115, _⟩ => ⟨S1200000x1, .f32⟩
  | .hbm, ⟨116, _⟩ => ⟨S_, .f32⟩
  | .hbm, ⟨117, _⟩ => ⟨S100000x1, .f32⟩
  | .hbm, ⟨118, _⟩ => ⟨S1200000x1, .i32⟩
  | .hbm, ⟨119, _⟩ => ⟨S100000x1, .f32⟩
  | .hbm, ⟨120, _⟩ => ⟨S1x1, .f32⟩
  | .hbm, ⟨121, _⟩ => ⟨S100000x1, .f32⟩
  | .hbm, ⟨122, _⟩ => ⟨S100000x1, .f32⟩
  | .hbm, ⟨123, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S128x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x128, .f32⟩
  | .local _ .vmem, ⟨10, _⟩ => ⟨S10000x128, .f32⟩
  | .local _ .vmem, ⟨11, _⟩ => ⟨S128x64, .f32⟩
  | .local _ .vmem, ⟨12, _⟩ => ⟨S64, .f32⟩
  | .local _ .vmem, ⟨13, _⟩ => ⟨S128x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S1, .f32⟩
  | .local _ .vmem, ⟨24, _⟩ => ⟨S64x1, .f32⟩
  | .local _ .vmem, ⟨25, _⟩ => ⟨S10000x1, .f32⟩
  | .local _ .vmem, ⟨26, _⟩ => ⟨S10000x1, .f32⟩
  | .local _ .vmem, ⟨27, _⟩ => ⟨S10000x1, .f32⟩
  | .local _ .vmem, ⟨28, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call1_cst : Ref sig .tc := ⟨.hbm, 75, rfl⟩
abbrev main_call1_v0 : Ref sig .tc := ⟨.hbm, 76, rfl⟩
abbrev main_v46 : Ref sig .tc := ⟨.hbm, 77, rfl⟩
abbrev main_v47 : Ref sig .tc := ⟨.hbm, 78, rfl⟩
abbrev main_v48_0 : Ref sig .tc := ⟨.hbm, 79, rfl⟩
abbrev main_v48_1 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_c_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call2_cst : Ref sig .tc := ⟨.hbm, 100, rfl⟩
abbrev main_call2_v0 : Ref sig .tc := ⟨.hbm, 101, rfl⟩
abbrev main_v65 : Ref sig .tc := ⟨.hbm, 102, rfl⟩
abbrev main_v66_0 : Ref sig .tc := ⟨.hbm, 103, rfl⟩
abbrev main_v66_1 : Ref sig .tc := ⟨.hbm, 104, rfl⟩
abbrev main_c_13 : Ref sig .tc := ⟨.hbm, 105, rfl⟩
abbrev main_v67 : Ref sig .tc := ⟨.hbm, 106, rfl⟩
abbrev main_v68 : Ref sig .tc := ⟨.hbm, 107, rfl⟩
abbrev main_c_14 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S10000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  shapeCasts_S10000x128_S10000x128 : S10000x128.ShapeCasts S10000x128
  shapeCasts_S10000x64_S10000x64 : S10000x64.ShapeCasts S10000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S10000x128_S128x64_S10000x64_1_0_0_1_n_n_wf : DotDims.WF S10000x128 S128x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x1_S10000x1_1_0_0_1_n_n_wf : DotDims.WF S10000x64 S64x1 S10000x1 [1] [0] [0] [1] [] []
  gather_S100000x1_S1200000x1_S1200000x1_1_0_n_n_0_1_11_wf : GatherDims.WF S100000x1 S1200000x1 S1200000x1 [1] [0] [] [0] [] 1 ![1, 1]
  scatter_S100000x1_S1200000x1_S1200000x1_1_0_0_1_wf : ScatterDims.WF S100000x1 S1200000x1 S1200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S100000x1.size a
  hwx2_5 : ∀ i : grid2.Coords, EltTy.bits .f32 = 32 ∨ (Rect.block (s := S100000x1) S10000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x1.size a ≤ S100000x1.size a
  hwx2_6 : ∀ i : grid2.Coords, EltTy.bits .f32 = 32 ∨ (Rect.block (s := S100000x1) S10000x1.size (cc2_transform_6 i) (hinb2_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1200000x1_S1200000x1_1_0_n_n_0_1_11 : GatherDims S100000x1 S1200000x1 S1200000x1 where
  offsetDims := [1]
  collapsedSliceDims := [0]
  operandBatchingDims := []
  startIndicesBatchingDims := []
  startIndexMap := [0]
  indexVectorDim := 1
  sliceSizes := ![1, 1]
  wf := gather_S100000x1_S1200000x1_S1200000x1_1_0_n_n_0_1_11_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_1) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_1) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66_0) S10000x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v66_1) S10000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1200000 : Shape := ⟨2, ![2, 1200000]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x64 : Shape := ⟨2, ![100000, 64]⟩
abbrev S1x64 : Shape := ⟨2, ![1, 64]⟩
abbrev S1200000x64 : Shape := ⟨2, ![1200000, 64]⟩
abbrev S100000x1 : Shape := ⟨2, ![100000, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S128x64, .f32⟩
  | 4 => ⟨S64, .f32⟩
  | 5 => ⟨S128x64, .f32⟩
  | 6 => ⟨S64, .f32⟩
  | 7 => ⟨S128x64, .f32⟩
  | 8 => ⟨S64, .f32⟩
  | 9 => ⟨S64x1, .f32⟩
  | 10 => ⟨S1, .f32⟩
  | 11 => ⟨S64x1, .f32⟩
  | 12 => ⟨S1, .f32⟩
  | 13 => ⟨S2x1200000, .i32⟩
  | 14 => ⟨S1x1200000, .i32⟩
  | 15 => ⟨S1200000, .i32⟩
  | 16 => ⟨S1x1200000, .i32⟩
  | 17 => ⟨S1200000, .i32⟩
  | 18 => ⟨S_, .f32⟩
  | 19 => ⟨S1200000, .f32⟩
  | 20 => ⟨S_, .f32⟩
  | 21 => ⟨S100000, .f32⟩
  | 22 => ⟨S1200000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S_, .i32⟩
  | 45 => ⟨S1200000, .i32⟩
  | 46 => ⟨S1200000, .i1⟩
  | 47 => ⟨S_, .i32⟩
  | 48 => ⟨S1200000, .i32⟩
  | 49 => ⟨S1200000, .i32⟩
  | 50 => ⟨S1200000, .i32⟩
  | 51 => ⟨S1200000x1, .i32⟩
  | 52 => ⟨S1200000, .f32⟩
  | 53 => ⟨S1200000, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S100000x64, .f32⟩
  | 62 => ⟨S_, .i32⟩
  | 63 => ⟨S1200000, .i32⟩
  | 64 => ⟨S1200000, .i1⟩
  | 65 => ⟨S_, .i32⟩
  | 66 => ⟨S1200000, .i32⟩
  | 67 => ⟨S1200000, .i32⟩
  | 68 => ⟨S1200000, .i32⟩
  | 69 => ⟨S1200000x1, .i32⟩
  | 70 => ⟨S1200000x64, .f32⟩
  | 71 => ⟨S1200000x1, .f32⟩
  | 72 => ⟨S1200000x64, .f32⟩
  | 73 => ⟨S1200000x64, .f32⟩
  | 74 => ⟨S_, .f32⟩
  | 75 => ⟨S100000x64, .f32⟩
  | 76 => ⟨S1200000x1, .i32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x128, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .i32⟩
  | 94 => ⟨S1200000, .i32⟩
  | 95 => ⟨S1200000, .i1⟩
  | 96 => ⟨S_, .i32⟩
  | 97 => ⟨S1200000, .i32⟩
  | 98 => ⟨S1200000, .i32⟩
  | 99 => ⟨S1200000, .i32⟩
  | 100 => ⟨S1200000x1, .i32⟩
  | 101 => ⟨S1200000x64, .f32⟩
  | 102 => ⟨S1200000x1, .f32⟩
  | 103 => ⟨S1200000x64, .f32⟩
  | 104 => ⟨S1200000x64, .f32⟩
  | 105 => ⟨S_, .f32⟩
  | 106 => ⟨S100000x64, .f32⟩
  | 107 => ⟨S1200000x1, .i32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S100000x1, .f32⟩
  | 117 => ⟨S1x1, .f32⟩
  | 118 => ⟨S100000x1, .f32⟩
  | 119 => ⟨S100000x1, .f32⟩
  | 120 => ⟨S100000x1, .f32⟩
  | 121 => ⟨S_, .i32⟩
  | 122 => ⟨S1200000, .i32⟩
  | 123 => ⟨S1200000, .i1⟩
  | 124 => ⟨S_, .i32⟩
  | 125 => ⟨S1200000, .i32⟩
  | 126 => ⟨S1200000, .i32⟩
  | 127 => ⟨S1200000, .i32⟩
  | _ => ⟨S100000x128, .f32⟩

abbrev hbmTy0_1 (i : Nat) : BufTy := match i % 128 with
  | 0 => ⟨S1200000x1, .i32⟩
  | 1 => ⟨S1200000x1, .f32⟩
  | 2 => ⟨S1200000x1, .f32⟩
  | 3 => ⟨S1200000x1, .f32⟩
  | 4 => ⟨S_, .f32⟩
  | 5 => ⟨S100000x1, .f32⟩
  | 6 => ⟨S1200000x1, .i32⟩
  | 7 => ⟨S100000x1, .f32⟩
  | 8 => ⟨S1x1, .f32⟩
  | 9 => ⟨S100000x1, .f32⟩
  | 10 => ⟨S100000x1, .f32⟩
  | 11 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_cst : Ref sig .tc := ⟨.hbm, 58, rfl⟩
abbrev main_call1_v0 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call2_cst : Ref sig .tc := ⟨.hbm, 81, rfl⟩
abbrev main_call2_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call3_cst : Ref sig .tc := ⟨.hbm, 89, rfl⟩
abbrev main_call3_v0 : Ref sig .tc := ⟨.hbm, 90, rfl⟩
abbrev main_v57 : Ref sig .tc := ⟨.hbm, 91, rfl⟩
abbrev main_v58 : Ref sig .tc := ⟨.hbm, 92, rfl⟩
abbrev main_c_10 : Ref sig .tc := ⟨.hbm, 93, rfl⟩
abbrev main_v59 : Ref sig .tc := ⟨.hbm, 94, rfl⟩
abbrev main_v60 : Ref sig .tc := ⟨.hbm, 95, rfl⟩
abbrev main_c_11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call4_cst : Ref sig .tc := ⟨.hbm, 112, rfl⟩
abbrev main_call4_v0 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_13 : Ref sig .tc := ⟨.hbm, 121, rfl⟩
abbrev main_v82 : Ref sig .tc := ⟨.hbm, 122, rfl⟩
abbrev main_v83 : Ref sig .tc := ⟨.hbm, 123, rfl⟩
abbrev main_c_14 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_15 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1200000x1_S1200000x64_0_1 : S1200000x1.BroadcastsInDim S1200000x64 (![0, 1] : Fin 2 → Fin S1200000x64.rank)
  concatenates_S100000x64_S100000x64_S100000x128_d1 : Shape.Concatenates [S100000x64, S100000x64] S100000x128 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x128_S128x64_S100000x64_1_0_0_1_n_n_wf : DotDims.WF S100000x128 S128x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x1_S100000x1_1_0_0_1_n_n_wf : DotDims.WF S100000x64 S64x1 S100000x1 [1] [0] [0] [1] [] []
  gather_S100000x1_S1200000x1_S1200000x1_1_0_n_n_0_1_11_wf : GatherDims.WF S100000x1 S1200000x1 S1200000x1 [1] [0] [] [0] [] 1 ![1, 1]
  scatter_S100000x1_S1200000x1_S1200000x1_1_0_0_1_wf : ScatterDims.WF S100000x1 S1200000x1 S1200000x1 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1200000x1_S1200000x1_1_0_n_n_0_1_11 : GatherDims S100000x1 S1200000x1 S1200000x1 where
  offsetDims := [1]
  collapsedSliceDims := [0]
  operandBatchingDims := []
  startIndicesBatchingDims := []
  startIndexMap := [0]
  indexVectorDim := 1
  sliceSizes := ![1, 1]
  wf := gather_S100000x1_S1200000x1_S1200000x1_1_0_n_n_0_1_11_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf

class Facts : Prop extends Facts₀ where

variable [Facts]
-- ==== Proof.KernelRun.lean ====
/-
  The idealized kernel's run with every buffer named.

  @main is twelve segments: nine stretches of host operations and three kernel regions. Folding the segments from the
  launch memory gives the contents of every unscoped buffer at the return, `W12`: a stretch applies its operations in
  order, a region leaves each of its arrays at what its grid points wrote back and every other buffer as it found it.
  Here the run is stated with that fold as its post: every weakly fair execution terminates, nothing faults, and
  every unscoped buffer of every core ends at `W12`. In particular the result buffer does.
-/
import proofs.«138869_j22909355557015_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every core ends at
    the fold of the segments from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result buffer ends at the fold's value there, and the argument arrays end as launched. -/
theorem run_result : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v82 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c)⟩) (run_all m ρ)

end Cert.KernelIdeal.Whole

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«138869_j22909355557015_1_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.Dense.lean ====
/-
  The dense layers, entry by entry, at the exact extended reals.

  Each kernel launch applies, to a block of 10000 rows, one or two affine maps `x ↦ x·W (+ b)`, one of them followed by
  `max · 0`; the reference applies the same maps to all 100000 rows at once. Entry `(r, q)` of either is
  `∑ e, x (r, e) * W (e, q) (+ b q)`: a row of `x` against a column of `W`. Narrowing a factor to bf16 before the
  product changes nothing at the exact reals, and a product accumulated from zero is the plain sum.

  Here: the whole-array layers in the reference's spelling with their entry formulas, and the entry formula of what
  each launch stores for its block.
-/
import proofs.«138869_j22909355557015_1_alg».proof.Proof.Gen.ReferenceIdeal
import proofs.«138869_j22909355557015_1_alg».proof.Proof.Gen.KernelIdeal.Skeleton
import proofs.«138869_j22909355557015_1_alg».proof.Proof.LibMatmulNN
import proofs.«138869_j22909355557015_1_alg».proof.Proof.LibDotNN
import proofs.«138869_j22909355557015_1_alg».proof.Proof.LibBroadcastInDim
import proofs.«138869_j22909355557015_1_alg».proof.Proof.LibBiasRow
import Idealize.ShloMosaic.PureOps.Ideal.Laws

noncomputable section

namespace Cert.Gcn

open Idealize.ShloMosaic Idealize.ShloMosaic.ValueIdx

/-! ## The whole-array layers, as the reference spells them -/

section Layers

variable {F : FTy → Type} [FloatOps F]

/-- `X·W` for 100000 rows of 128 features into 64. -/
def lin64 (X : FVec F Cert.ReferenceIdeal.S100000x128 .f32) (W : FVec F Cert.ReferenceIdeal.S128x64 .f32) : FVec F Cert.ReferenceIdeal.S100000x64 .f32 :=
  Host.dotGeneral Cert.ReferenceIdeal.dot_S100000x128_S128x64_S100000x64_1_0_0_1_n_n none X W

/-- A bias of 64 entries repeated on every one of the 100000 rows. -/
def bias64 (b : FVec F Cert.ReferenceIdeal.S64 .f32) : FVec F Cert.ReferenceIdeal.S100000x64 .f32 :=
  broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b)

/-- `max · 0`, entry by entry, on a `[100000, 64]` array. -/
def relu64 (z : FVec F Cert.ReferenceIdeal.S100000x64 .f32) : FVec F Cert.ReferenceIdeal.S100000x64 .f32 :=
  maximumf z (broadcastInDim Cert.ReferenceIdeal.S100000x64 ![] Cert.ReferenceIdeal.Facts₀.bcast_S_S100000x64 (constant Cert.ReferenceIdeal.S_ .f32 0x00000000#32))

/-- `X·W` for 100000 rows of 64 features into one. -/
def lin1 (X : FVec F Cert.ReferenceIdeal.S100000x64 .f32) (W : FVec F Cert.ReferenceIdeal.S64x1 .f32) : FVec F Cert.ReferenceIdeal.S100000x1 .f32 :=
  Host.dotGeneral Cert.ReferenceIdeal.dot_S100000x64_S64x1_S100000x1_1_0_0_1_n_n none X W

/-- A one-entry bias repeated on every one of the 100000 rows. -/
def bias1 (b : FVec F Cert.ReferenceIdeal.S1 .f32) : FVec F Cert.ReferenceIdeal.S100000x1 .f32 :=
  broadcastInDim Cert.ReferenceIdeal.S100000x1 ![0, 1] Cert.ReferenceIdeal.Facts₀.bcast_S1x1_S100000x1_0_1 (broadcastInDim Cert.ReferenceIdeal.S1x1 ![1] Cert.ReferenceIdeal.Facts₀.bcast_S1_S1x1_1 b)

end Layers

/-! ## Their entries -/

theorem lin64_apply (X : FVec Ideal Cert.ReferenceIdeal.S100000x128 .f32) (W : FVec Ideal Cert.ReferenceIdeal.S128x64 .f32) (r : Fin 100000) (q : Fin 64) :
    lin64 X W (ix2 r q) = ∑ e : Fin 128, X (ix2 r e) * W (ix2 e q) :=
  Cert.LibDotNN.dotGeneral_apply (M := 100000) (N := 64) (K := 128) Cert.ReferenceIdeal.dot_S100000x128_S128x64_S100000x64_1_0_0_1_n_n.wf none .single X W r q

theorem lin1_apply (X : FVec Ideal Cert.ReferenceIdeal.S100000x64 .f32) (W : FVec Ideal Cert.ReferenceIdeal.S64x1 .f32) (r : Fin 100000) (u : Fin 1) :
    lin1 X W (ix2 r u) = ∑ e : Fin 64, X (ix2 r e) * W (ix2 e u) :=
  Cert.LibDotNN.dotGeneral_apply (M := 100000) (N := 1) (K := 64) Cert.ReferenceIdeal.dot_S100000x64_S64x1_S100000x1_1_0_0_1_n_n.wf none .single X W r u

theorem bias64_apply {α : Type} (b : Cert.ReferenceIdeal.S64.Idx → α) (r : Fin 100000) (q : Fin 64) :
    broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 r q) = b (ix1 q) :=
  (BroadcastRead.row_apply (a := 100000) (b := 64) _ Cert.ReferenceIdeal.Facts₀.bcast_S1x64_S100000x64_0_1 r q).trans
    (BroadcastRead.vector_row_apply (b := 64) b Cert.ReferenceIdeal.Facts₀.bcast_S64_S1x64_1 0 q)

theorem bias1_apply {α : Type} (b : Cert.ReferenceIdeal.S1.Idx → α) (r : Fin 100000) (u : Fin 1) :
    broadcastInDim Cert.ReferenceIdeal.S100000x1 ![0, 1] Cert.ReferenceIdeal.Facts₀.bcast_S1x1_S100000x1_0_1 (broadcastInDim Cert.ReferenceIdeal.S1x1 ![1] Cert.ReferenceIdeal.Facts₀.bcast_S1_S1x1_1 b) (ix2 r u) = b (ix1 u) :=
  (BroadcastRead.row_apply (a := 100000) (b := 1) _ Cert.ReferenceIdeal.Facts₀.bcast_S1x1_S100000x1_0_1 r u).trans
    (BroadcastRead.vector_row_apply (b := 1) b Cert.ReferenceIdeal.Facts₀.bcast_S1_S1x1_1 0 u)

theorem relu64_apply (z : FVec Ideal Cert.ReferenceIdeal.S100000x64 .f32) (i : Cert.ReferenceIdeal.S100000x64.Idx) : relu64 z i = max (z i) 0 := by
  show max (z i) (broadcastInDim Cert.ReferenceIdeal.S100000x64 ![] Cert.ReferenceIdeal.Facts₀.bcast_S_S100000x64 (constant (F := Ideal) Cert.ReferenceIdeal.S_ .f32 0x00000000#32) i) = _
  rw [BiasRead.scalar_apply _ Cert.ReferenceIdeal.Facts₀.bcast_S_S100000x64 i (fun a => a.elim0)]
  show max (z i) (Ideal.ofBits .f32 0x00000000#32) = _
  rw [Ideal.ofBits_zero_f32]

/-- `max (X·W + b) 0` at `(r, q)`. -/
theorem affine_relu_apply (X : FVec Ideal Cert.ReferenceIdeal.S100000x128 .f32) (W : FVec Ideal Cert.ReferenceIdeal.S128x64 .f32) (b : FVec Ideal Cert.ReferenceIdeal.S64 .f32)
    (r : Fin 100000) (q : Fin 64) :
    relu64 (addf (lin64 X W) (bias64 b)) (ix2 r q) = max ((∑ e : Fin 128, X (ix2 r e) * W (ix2 e q)) + b (ix1 q)) 0 := by
  rw [relu64_apply, addf_apply, lin64_apply]
  unfold bias64
  rw [bias64_apply]

/-- `(X₁ + X₂)·W + b` into one column, at `(r, u)`. -/
theorem summed_affine_apply (X1 X2 : FVec Ideal Cert.ReferenceIdeal.S100000x64 .f32) (W : FVec Ideal Cert.ReferenceIdeal.S64x1 .f32) (b : FVec Ideal Cert.ReferenceIdeal.S1 .f32)
    (r : Fin 100000) (u : Fin 1) :
    addf (lin1 (addf X1 X2) W) (bias1 b) (ix2 r u) = (∑ e : Fin 64, (X1 (ix2 r e) + X2 (ix2 r e)) * W (ix2 e u)) + b (ix1 u) := by
  rw [addf_apply, lin1_apply]
  unfold bias1
  rw [bias1_apply]
  rfl

/-- `(X₁ + X₂)·W` into one column, at `(r, u)`. -/
theorem summed_linear_apply (X1 X2 : FVec Ideal Cert.ReferenceIdeal.S100000x64 .f32) (W : FVec Ideal Cert.ReferenceIdeal.S64x1 .f32) (r : Fin 100000) (u : Fin 1) :
    lin1 (addf X1 X2) W (ix2 r u) = ∑ e : Fin 64, (X1 (ix2 r e) + X2 (ix2 r e)) * W (ix2 e u) := by
  rw [lin1_apply]
  rfl

/-! ## What each launch stores for its block, entry by entry -/

/-- First and second launch, first output: a block's rows through `x·W + b`, then `max · 0`. -/
theorem affine_relu_block (x0 : Vec Ideal Cert.KernelIdeal.S10000x128 .f32) (x1 : Vec Ideal Cert.KernelIdeal.S128x64 .f32) (x2 : Vec Ideal Cert.KernelIdeal.S64 .f32)
    (p : Fin 10000) (q : Fin 64) :
    max (FloatOps.matmul Cert.KernelIdeal.dot_S10000x128_S128x64_S10000x64_1_0_0_1_n_n none
          (truncf .bf16 x0 Cert.KernelIdeal.Facts₀.bitsLt_bf16_f32 : FVec Ideal Cert.KernelIdeal.S10000x128 .bf16) (truncf .bf16 x1 Cert.KernelIdeal.Facts₀.bitsLt_bf16_f32 : FVec Ideal Cert.KernelIdeal.S128x64 .bf16)
          (constant (F := Ideal) Cert.KernelIdeal.S10000x64 .f32 0x00000000#32) (ix2 p q)
        + broadcastTo Cert.KernelIdeal.S10000x64 (shapeCast Cert.KernelIdeal.S1x64 x2 Cert.KernelIdeal.Facts₀.shapeCasts_S64_S1x64) Cert.KernelIdeal.Facts₀.broadcasts_S1x64_S10000x64 (ix2 p q))
      (Ideal.ofBits .f32 0x00000000#32)
      = max ((∑ e : Fin 128, x0 (ix2 p e) * x1 (ix2 e q)) + x2 (ix1 q)) 0 := by
  have hm := Cert.LibMatmulNN.matmul_zero_apply (M := 10000) (N := 64) (K := 128) Cert.KernelIdeal.dot_S10000x128_S128x64_S10000x64_1_0_0_1_n_n.wf none
    (truncf .bf16 x0 Cert.KernelIdeal.Facts₀.bitsLt_bf16_f32 : FVec Ideal Cert.KernelIdeal.S10000x128 .bf16) (truncf .bf16 x1 Cert.KernelIdeal.Facts₀.bitsLt_bf16_f32 : FVec Ideal Cert.KernelIdeal.S128x64 .bf16) p q
  have hb := BiasRead.bias_rows_apply (a := 10000) (b := 64) x2 Cert.KernelIdeal.Facts₀.shapeCasts_S64_S1x64 Cert.KernelIdeal.Facts₀.broadcasts_S1x64_S10000x64 p q
  rw [Ideal.ofBits_zero_f32]
  exact congrArg (fun s => max s (0 : EReal)) (congrArg₂ (· + ·) hm hb)

theorem pay0_2_apply (x0 : Vec Ideal Cert.KernelIdeal.S10000x128 .f32) (x1 : Vec Ideal Cert.KernelIdeal.S128x64 .f32) (x2 : Vec Ideal Cert.KernelIdeal.S64 .f32)
    (p : Fin 10000) (q : Fin 64) :
    Cert.KernelIdeal.Gen.k0_pay2 x0 x1 x2 (ix2 p q) = max ((∑ e : Fin 128, x0 (ix2 p e) * x1 (ix2 e q)) + x2 (ix1 q)) 0 :=
  affine_relu_block x0 x1 x2 p q

/-- The second launch narrows its block after a shape cast to the same shape, which changes nothing. -/
theorem k1_pay1_eq (x0 : Vec Ideal Cert.KernelIdeal.S10000x128 .f32) : Cert.KernelIdeal.Gen.k1_pay1 x0 = Cert.KernelIdeal.Gen.k0_pay1 x0 := by
  unfold Cert.KernelIdeal.Gen.k1_pay1 Cert.KernelIdeal.Gen.k0_pay1
  rw [shapeCast_self]

theorem pay1_2_apply (x0 : Vec Ideal Cert.KernelIdeal.S10000x128 .f32) (x1 : Vec Ideal Cert.KernelIdeal.S128x64 .f32) (x2 : Vec Ideal Cert.KernelIdeal.S64 .f32)
    (p : Fin 10000) (q : Fin 64) :
    Cert.KernelIdeal.Gen.k1_pay2 x0 x1 x2 (ix2 p q) = max ((∑ e : Fin 128, x0 (ix2 p e) * x1 (ix2 e q)) + x2 (ix1 q)) 0 := by
  have h : Cert.KernelIdeal.Gen.k1_pay2 x0 x1 x2 = Cert.KernelIdeal.Gen.k0_pay2 x0 x1 x2 := by
    unfold Cert.KernelIdeal.Gen.k1_pay2 Cert.KernelIdeal.Gen.k0_pay2
    rw [k1_pay1_eq]
  rw [h]
  exact pay0_2_apply x0 x1 x2 p q

/-- First and second launch, second output: a block's rows through `x·W`. -/
theorem linear_block (x0 : Vec Ideal Cert.KernelIdeal.S10000x128 .f32) (x3 : Vec Ideal Cert.KernelIdeal.S128x64 .f32) (p : Fin 10000) (q : Fin 64) :
    FloatOps.matmul Cert.KernelIdeal.dot_S10000x128_S128x64_S10000x64_1_0_0_1_n_n none
        (truncf .bf16 x0 Cert.KernelIdeal.Facts₀.bitsLt_bf16_f32 : FVec Ideal Cert.KernelIdeal.S10000x128 .bf16) (truncf .bf16 x3 Cert.KernelIdeal.Facts₀.bitsLt_bf16_f32 : FVec Ideal Cert.KernelIdeal.S128x64 .bf16)
        (constant (F := Ideal) Cert.KernelIdeal.S10000x64 .f32 0x00000000#32) (ix2 p q)
      = ∑ e : Fin 128, x0 (ix2 p e) * x3 (ix2 e q) :=
  Cert.LibMatmulNN.matmul_zero_apply (M := 10000) (N := 64) (K := 128) Cert.KernelIdeal.dot_S10000x128_S128x64_S10000x64_1_0_0_1_n_n.wf none
    (truncf .bf16 x0 Cert.KernelIdeal.Facts₀.bitsLt_bf16_f32 : FVec Ideal Cert.KernelIdeal.S10000x128 .bf16) (truncf .bf16 x3 Cert.KernelIdeal.Facts₀.bitsLt_bf16_f32 : FVec Ideal Cert.KernelIdeal.S128x64 .bf16) p q

theorem pay0_3_apply (x0 : Vec Ideal Cert.KernelIdeal.S10000x128 .f32) (x3 : Vec Ideal Cert.KernelIdeal.S128x64 .f32) (p : Fin 10000) (q : Fin 64) :
    Cert.KernelIdeal.Gen.k0_pay3 x0 x3 (ix2 p q) = ∑ e : Fin 128, x0 (ix2 p e) * x3 (ix2 e q) :=
  linear_block x0 x3 p q

theorem pay1_3_apply (x0 : Vec Ideal Cert.KernelIdeal.S10000x128 .f32) (x3 : Vec Ideal Cert.KernelIdeal.S128x64 .f32) (p : Fin 10000) (q : Fin 64) :
    Cert.KernelIdeal.Gen.k1_pay3 x0 x3 (ix2 p q) = ∑ e : Fin 128, x0 (ix2 p e) * x3 (ix2 e q) := by
  have h : Cert.KernelIdeal.Gen.k1_pay3 x0 x3 = Cert.KernelIdeal.Gen.k0_pay3 x0 x3 := by
    unfold Cert.KernelIdeal.Gen.k1_pay3 Cert.KernelIdeal.Gen.k0_pay3
    rw [k1_pay1_eq]
  rw [h]
  exact pay0_3_apply x0 x3 p q

/-- The third launch adds its two blocks entry by entry (each after a shape cast to the same shape) and narrows the sum. -/
theorem k2_pay1_apply (x0 x1 : Vec Ideal Cert.KernelIdeal.S10000x64 .f32) (i : Cert.KernelIdeal.S10000x64.Idx) :
    Cert.KernelIdeal.Gen.k2_pay1 x0 x1 i = x0 i + x1 i := by
  unfold Cert.KernelIdeal.Gen.k2_pay1
  rw [shapeCast_self, shapeCast_self]
  rfl

/-- A block of summed rows against a one-column factor: the product's entries. -/
theorem column_block (y : FVec Ideal Cert.KernelIdeal.S10000x64 .bf16) (w : Vec Ideal Cert.KernelIdeal.S64x1 .f32) (p : Fin 10000) (u : Fin 1) :
    FloatOps.matmul Cert.KernelIdeal.dot_S10000x64_S64x1_S10000x1_1_0_0_1_n_n none y
        (truncf .bf16 w Cert.KernelIdeal.Facts₀.bitsLt_bf16_f32 : FVec Ideal Cert.KernelIdeal.S64x1 .bf16)
        (constant (F := Ideal) Cert.KernelIdeal.S10000x1 .f32 0x00000000#32) (ix2 p u)
      = ∑ e : Fin 64, y (ix2 p e) * w (ix2 e u) :=
  Cert.LibMatmulNN.matmul_zero_apply (M := 10000) (N := 1) (K := 64) Cert.KernelIdeal.dot_S10000x64_S64x1_S10000x1_1_0_0_1_n_n.wf none
    y (truncf .bf16 w Cert.KernelIdeal.Facts₀.bitsLt_bf16_f32 : FVec Ideal Cert.KernelIdeal.S64x1 .bf16) p u

theorem summed_rows (x0 x1 : Vec Ideal Cert.KernelIdeal.S10000x64 .f32) (w : Vec Ideal Cert.KernelIdeal.S64x1 .f32) (p : Fin 10000) (u : Fin 1) :
    (∑ e : Fin 64, Cert.KernelIdeal.Gen.k2_pay1 x0 x1 (ix2 p e) * w (ix2 e u)) = ∑ e : Fin 64, (x0 (ix2 p e) + x1 (ix2 p e)) * w (ix2 e u) :=
  Finset.sum_congr rfl fun e _ => by rw [k2_pay1_apply]

/-- Third launch, first output: the sum of two blocks through `x·W + b` into one column. -/
theorem pay2_2_apply (x0 x1 : Vec Ideal Cert.KernelIdeal.S10000x64 .f32) (x2 : Vec Ideal Cert.KernelIdeal.S64x1 .f32) (x3 : Vec Ideal Cert.KernelIdeal.S1 .f32)
    (p : Fin 10000) (u : Fin 1) :
    Cert.KernelIdeal.Gen.k2_pay2 x0 x1 x2 x3 (ix2 p u) = (∑ e : Fin 64, (x0 (ix2 p e) + x1 (ix2 p e)) * x2 (ix2 e u)) + x3 (ix1 u) := by
  have hm := (column_block (Cert.KernelIdeal.Gen.k2_pay1 x0 x1) x2 p u).trans (summed_rows x0 x1 x2 p u)
  have hb := BiasRead.bias_rows_apply (a := 10000) (b := 1) x3 Cert.KernelIdeal.Facts₀.shapeCasts_S1_S1x1 Cert.KernelIdeal.Facts₀.broadcasts_S1x1_S10000x1 p u
  exact congrArg₂ (· + ·) hm hb

/-- Third launch, second output: the sum of two blocks through `x·W` into one column. -/
theorem pay2_3_apply (x0 x1 : Vec Ideal Cert.KernelIdeal.S10000x64 .f32) (x4 : Vec Ideal Cert.KernelIdeal.S64x1 .f32) (p : Fin 10000) (u : Fin 1) :
    Cert.KernelIdeal.Gen.k2_pay3 x0 x1 x4 (ix2 p u) = ∑ e : Fin 64, (x0 (ix2 p e) + x1 (ix2 p e)) * x4 (ix2 e u) :=
  (column_block (Cert.KernelIdeal.Gen.k2_pay1 x0 x1) x4 p u).trans (summed_rows x0 x1 x4 p u)

end Cert.Gcn

end
-- ==== Proof.Glue.lean ====
/-
  The graph convolution around the dense layers, as functions of whole arrays.

  An edge list `E : [2, 1200000]` of node indices gives each edge a source (row 0) and a target (row 1). The degree of
  a node counts the edges that target it; `dinv` is `deg^(-1/2)` where the degree is positive and `0` elsewhere; an
  edge's weight is the product of `dinv` at its two ends. A convolution gathers the source rows of a feature
  array, scales each by its edge's weight, adds them up at the targets, and adds a bias. Indices are read the way the
  array library reads them: a negative index is first shifted by the number of nodes.

  The network: two layers, each a dense branch `max (x·W + b) 0` beside a convolution branch `max (conv (x·W')) 0`
  (joined side by side after the first layer, added after the second), and a head that maps the sum to one column by
  a dense branch plus a convolution branch.

  Everything here is spelt exactly as the reference program spells it, so that the reference's result is this
  function of its arguments by unfolding alone.
-/
import proofs.«138869_j22909355557015_1_alg».proof.Proof.Dense

noncomputable section

namespace Cert.Gcn

open Idealize.ShloMosaic

variable {F : FTy → Type} [FloatOps F]

/-- The edges' sources: row 0 of the edge list. -/
def src (E : (⟨Cert.ReferenceIdeal.S2x1200000, .i32⟩ : BufTy).Contents (Elt F)) : (⟨Cert.ReferenceIdeal.S1200000, .i32⟩ : BufTy).Contents (Elt F) :=
  shapeCast Cert.ReferenceIdeal.S1200000 (extractStridedSlice Cert.ReferenceIdeal.S1x1200000 ![0, 0] E Cert.ReferenceIdeal.Facts₀.slices_S2x1200000_S1x1200000_0_0) Cert.ReferenceIdeal.Facts₀.shapeCasts_S1x1200000_S1200000

/-- The edges' targets: row 1 of the edge list. -/
def dst (E : (⟨Cert.ReferenceIdeal.S2x1200000, .i32⟩ : BufTy).Contents (Elt F)) : (⟨Cert.ReferenceIdeal.S1200000, .i32⟩ : BufTy).Contents (Elt F) :=
  shapeCast Cert.ReferenceIdeal.S1200000 (extractStridedSlice Cert.ReferenceIdeal.S1x1200000 ![1, 0] E Cert.ReferenceIdeal.Facts₀.slices_S2x1200000_S1x1200000_1_0) Cert.ReferenceIdeal.Facts₀.shapeCasts_S1x1200000_S1200000

/-- An index vector as a column of start indices. -/
def column (r : (⟨Cert.ReferenceIdeal.S1200000, .i32⟩ : BufTy).Contents (Elt F)) : (⟨Cert.ReferenceIdeal.S1200000x1, .i32⟩ : BufTy).Contents (Elt F) :=
  broadcastInDim Cert.ReferenceIdeal.S1200000x1 ![0] Cert.ReferenceIdeal.Facts₀.bcast_S1200000_S1200000x1_0 r

/-- Gather indices: a negative index shifted by the number of nodes, as a column of start indices. -/
def wrapped (r : (⟨Cert.ReferenceIdeal.S1200000, .i32⟩ : BufTy).Contents (Elt F)) : (⟨Cert.ReferenceIdeal.S1200000x1, .i32⟩ : BufTy).Contents (Elt F) :=
  column (select (cmpi .slt r (broadcastInDim Cert.ReferenceIdeal.S1200000 ![] Cert.ReferenceIdeal.Facts₀.bcast_S_S1200000 (constantI Cert.ReferenceIdeal.S_ 32 0#32)))
    (addi r (broadcastInDim Cert.ReferenceIdeal.S1200000 ![] Cert.ReferenceIdeal.Facts₀.bcast_S_S1200000 (constantI Cert.ReferenceIdeal.S_ 32 100000#32))) r)

/-- The number of edges that target each node. -/
def deg (E : (⟨Cert.ReferenceIdeal.S2x1200000, .i32⟩ : BufTy).Contents (Elt F)) : FVec F Cert.ReferenceIdeal.S100000 .f32 :=
  Host.scatterAdd Cert.ReferenceIdeal.scatter_S100000_S1200000x1_S1200000_n_0_0_1
    (broadcastInDim Cert.ReferenceIdeal.S100000 ![] Cert.ReferenceIdeal.Facts₀.bcast_S_S100000 (constant Cert.ReferenceIdeal.S_ .f32 0x00000000#32))
    (column (dst E))
    (broadcastInDim Cert.ReferenceIdeal.S1200000 ![] Cert.ReferenceIdeal.Facts₀.bcast_S_S1200000 (constant Cert.ReferenceIdeal.S_ .f32 0x3F800000#32))

/-- Which nodes have a positive degree. -/
def degPositive (E : (⟨Cert.ReferenceIdeal.S2x1200000, .i32⟩ : BufTy).Contents (Elt F)) : IVec Cert.ReferenceIdeal.S100000 1 :=
  cmpf (F := F) .ogt (deg E) (broadcastInDim Cert.ReferenceIdeal.S100000 ![] Cert.ReferenceIdeal.Facts₀.bcast_S_S100000 (constant Cert.ReferenceIdeal.S_ .f32 0x00000000#32))

/-- `max(deg, 1)^(-1/2)`. -/
def degRsqrt (E : (⟨Cert.ReferenceIdeal.S2x1200000, .i32⟩ : BufTy).Contents (Elt F)) : FVec F Cert.ReferenceIdeal.S100000 .f32 :=
  Host.rsqrt (maximumf (deg E) (broadcastInDim Cert.ReferenceIdeal.S100000 ![] Cert.ReferenceIdeal.Facts₀.bcast_S_S100000 (constant Cert.ReferenceIdeal.S_ .f32 0x3F800000#32)))

/-- `deg^(-1/2)` where the degree is positive, `0` elsewhere. -/
def dinv (E : (⟨Cert.ReferenceIdeal.S2x1200000, .i32⟩ : BufTy).Contents (Elt F)) : FVec F Cert.ReferenceIdeal.S100000 .f32 :=
  select (degPositive (F := F) E) (degRsqrt E)
    (broadcastInDim Cert.ReferenceIdeal.S100000 ![] Cert.ReferenceIdeal.Facts₀.bcast_S_S100000 (id (constant Cert.ReferenceIdeal.S_ .f32 0x00000000#32)))

/-- An edge's weight from a per-node factor: the factor at its source times the factor at its target. -/
def weightOf (d : FVec F Cert.ReferenceIdeal.S100000 .f32) (row col : (⟨Cert.ReferenceIdeal.S1200000, .i32⟩ : BufTy).Contents (Elt F)) : FVec F Cert.ReferenceIdeal.S1200000 .f32 :=
  mulf (Host.gather Cert.ReferenceIdeal.gather_S100000_S1200000x1_S1200000_n_0_n_n_0_1_1 d (wrapped row))
    (Host.gather Cert.ReferenceIdeal.gather_S100000_S1200000x1_S1200000_n_0_n_n_0_1_1 d (wrapped col))

/-- Each edge's weight: `dinv` at its source times `dinv` at its target. -/
def edgeWeight (E : (⟨Cert.ReferenceIdeal.S2x1200000, .i32⟩ : BufTy).Contents (Elt F)) : FVec F Cert.ReferenceIdeal.S1200000 .f32 :=
  weightOf (dinv E) (src E) (dst E)

/-- Gather the rows of `h` at the edges' sources, weight each by its edge, add up at the targets, add the bias. -/
def agg64 (h : FVec F Cert.ReferenceIdeal.S100000x64 .f32) (row col : (⟨Cert.ReferenceIdeal.S1200000, .i32⟩ : BufTy).Contents (Elt F)) (nrm : FVec F Cert.ReferenceIdeal.S1200000 .f32)
    (b : FVec F Cert.ReferenceIdeal.S64 .f32) : FVec F Cert.ReferenceIdeal.S100000x64 .f32 :=
  addf (Host.scatterAdd Cert.ReferenceIdeal.scatter_S100000x64_S1200000x1_S1200000x64_1_0_0_1
      (broadcastInDim Cert.ReferenceIdeal.S100000x64 ![] Cert.ReferenceIdeal.Facts₀.bcast_S_S100000x64 (constant Cert.ReferenceIdeal.S_ .f32 0x00000000#32))
      (column col)
      (mulf (Host.gather Cert.ReferenceIdeal.gather_S100000x64_S1200000x1_S1200000x64_1_0_n_n_0_1_164 h (wrapped row))
        (broadcastInDim Cert.ReferenceIdeal.S1200000x64 ![0, 1] Cert.ReferenceIdeal.Facts₀.bcast_S1200000x1_S1200000x64_0_1
          (broadcastInDim Cert.ReferenceIdeal.S1200000x1 ![0] Cert.ReferenceIdeal.Facts₀.bcast_S1200000_S1200000x1_0 nrm))))
    (bias64 b)

/-- The same for a one-column feature array. -/
def agg1 (h : FVec F Cert.ReferenceIdeal.S100000x1 .f32) (row col : (⟨Cert.ReferenceIdeal.S1200000, .i32⟩ : BufTy).Contents (Elt F)) (nrm : FVec F Cert.ReferenceIdeal.S1200000 .f32)
    (b : FVec F Cert.ReferenceIdeal.S1 .f32) : FVec F Cert.ReferenceIdeal.S100000x1 .f32 :=
  addf (Host.scatterAdd Cert.ReferenceIdeal.scatter_S100000x1_S1200000x1_S1200000x1_1_0_0_1
      (broadcastInDim Cert.ReferenceIdeal.S100000x1 ![] Cert.ReferenceIdeal.Facts₀.bcast_S_S100000x1 (constant Cert.ReferenceIdeal.S_ .f32 0x00000000#32))
      (column col)
      (mulf (Host.gather Cert.ReferenceIdeal.gather_S100000x1_S1200000x1_S1200000x1_1_0_n_n_0_1_11 h (wrapped row))
        (broadcastInDim Cert.ReferenceIdeal.S1200000x1 ![0] Cert.ReferenceIdeal.Facts₀.bcast_S1200000_S1200000x1_0 nrm)))
    (bias1 b)

/-- Two `[100000, 64]` arrays side by side. -/
def beside (a b : FVec F Cert.ReferenceIdeal.S100000x64 .f32) : FVec F Cert.ReferenceIdeal.S100000x128 .f32 :=
  concatenate Cert.ReferenceIdeal.S100000x128 1 [⟨Cert.ReferenceIdeal.S100000x64, a⟩, ⟨Cert.ReferenceIdeal.S100000x64, b⟩] Cert.ReferenceIdeal.Facts₀.concatenates_S100000x64_S100000x64_S100000x128_d1

/-- The first layer: the dense branch beside the convolution branch. -/
def layer1 (x : FVec F Cert.ReferenceIdeal.S100000x128 .f32) (w1 : FVec F Cert.ReferenceIdeal.S128x64 .f32) (b1 : FVec F Cert.ReferenceIdeal.S64 .f32)
    (w3 : FVec F Cert.ReferenceIdeal.S128x64 .f32) (b3 : FVec F Cert.ReferenceIdeal.S64 .f32) (E : (⟨Cert.ReferenceIdeal.S2x1200000, .i32⟩ : BufTy).Contents (Elt F)) : FVec F Cert.ReferenceIdeal.S100000x128 .f32 :=
  beside (relu64 (addf (lin64 x w1) (bias64 b1))) (relu64 (agg64 (lin64 x w3) (src E) (dst E) (edgeWeight E) b3))

/-- The head: the sum of the second layer's two branches, through a dense branch plus a convolution branch. -/
def head (x5 x6 : FVec F Cert.ReferenceIdeal.S100000x64 .f32) (w9 : FVec F Cert.ReferenceIdeal.S64x1 .f32) (b9 : FVec F Cert.ReferenceIdeal.S1 .f32)
    (w11 : FVec F Cert.ReferenceIdeal.S64x1 .f32) (b11 : FVec F Cert.ReferenceIdeal.S1 .f32) (E : (⟨Cert.ReferenceIdeal.S2x1200000, .i32⟩ : BufTy).Contents (Elt F)) : FVec F Cert.ReferenceIdeal.S100000x1 .f32 :=
  addf (addf (lin1 (addf x5 x6) w9) (bias1 b9)) (agg1 (lin1 (addf x5 x6) w11) (src E) (dst E) (edgeWeight E) b11)

/-- The whole network as one function of the fourteen arguments. -/
def network (x : FVec F Cert.ReferenceIdeal.S100000x128 .f32) (w1 : FVec F Cert.ReferenceIdeal.S128x64 .f32) (b1 : FVec F Cert.ReferenceIdeal.S64 .f32)
    (w3 : FVec F Cert.ReferenceIdeal.S128x64 .f32) (b3 : FVec F Cert.ReferenceIdeal.S64 .f32) (w5 : FVec F Cert.ReferenceIdeal.S128x64 .f32) (b5 : FVec F Cert.ReferenceIdeal.S64 .f32)
    (w7 : FVec F Cert.ReferenceIdeal.S128x64 .f32) (b7 : FVec F Cert.ReferenceIdeal.S64 .f32) (w9 : FVec F Cert.ReferenceIdeal.S64x1 .f32) (b9 : FVec F Cert.ReferenceIdeal.S1 .f32)
    (w11 : FVec F Cert.ReferenceIdeal.S64x1 .f32) (b11 : FVec F Cert.ReferenceIdeal.S1 .f32) (E : (⟨Cert.ReferenceIdeal.S2x1200000, .i32⟩ : BufTy).Contents (Elt F)) : FVec F Cert.ReferenceIdeal.S100000x1 .f32 :=
  head (relu64 (addf (lin64 (layer1 x w1 b1 w3 b3 E) w5) (bias64 b5)))
    (relu64 (agg64 (lin64 (layer1 x w1 b1 w3 b3 E) w7) (src E) (dst E) (edgeWeight E) b7))
    w9 b9 w11 b11 E

end Cert.Gcn

end
-- ==== Proof.Stretches.lean ====
/-
  Each stretch of host operations as a function of the buffers it reads.

  A stretch is applied to any contents of the buffers; its results are stated through what it reads there and nothing
  else. The three stretches that are inlined calls (the `where` that zeroes isolated nodes, the two `max · 0`) are
  stated in the program's own spelling; the others in the network's.
-/
import proofs.«138869_j22909355557015_1_alg».proof.Proof.Gen.KernelIdeal.Frame
import proofs.«138869_j22909355557015_1_alg».proof.Proof.Glue

set_option maxRecDepth 16384

noncomputable section

namespace Cert.KernelIdeal.Whole

open Cert.KernelIdeal Cert.KernelIdeal.Gen Cert.Gcn
open Idealize.ShloMosaic Idealize.ShloMosaic.TcCoe Idealize.ShloMosaic.StableHlo
open Idealize.SL.Sem

variable (Wv : Valuation τ sig (Elt Ideal))

/-! ## The first stretch: the edge list's rows, the degrees' mask and inverse square root -/

theorem first_src : StableHlo.after hostOps0 Wv (Proc.devRef .tc main_v1) = src (Wv (Proc.devRef .tc main_arg13)) := by
  after_results_simp <;> rfl

theorem first_dst : StableHlo.after hostOps0 Wv (Proc.devRef .tc main_v3) = dst (Wv (Proc.devRef .tc main_arg13)) := by
  after_results_simp <;> rfl

theorem first_positive : StableHlo.after hostOps0 Wv (Proc.devRef .tc main_v9) = degPositive (F := Ideal) (Wv (Proc.devRef .tc main_arg13)) := by
  after_results_simp <;> rfl

theorem first_rsqrt : StableHlo.after hostOps0 Wv (Proc.devRef .tc main_v12) = degRsqrt (F := Ideal) (Wv (Proc.devRef .tc main_arg13)) := by
  after_results_simp <;> rfl

theorem first_zero : StableHlo.after hostOps0 Wv (Proc.devRef .tc main_cst_3) = constant (F := Ideal) S_ .f32 0x00000000#32 := by
  after_results_simp <;> rfl

/-! ## The `where` call: the factor is the inverse square root where the degree is positive, zero elsewhere -/

theorem where_call : StableHlo.after hostOps0_1 Wv (Proc.devRef .tc main_v13)
    = select (Wv (Proc.devRef .tc main_v9)) (Wv (Proc.devRef .tc main_v12)) (broadcastInDim S100000 ![] Facts₀.bcast_S_S100000 (id (Wv (Proc.devRef .tc main_cst_3)))) := by
  after_results_simp <;> rfl

theorem where_src : StableHlo.after hostOps0_1 Wv (Proc.devRef .tc main_v1) = (Wv (Proc.devRef .tc main_v1)) := by
  after_results_simp <;> rfl

theorem where_dst : StableHlo.after hostOps0_1 Wv (Proc.devRef .tc main_v3) = (Wv (Proc.devRef .tc main_v3)) := by
  after_results_simp <;> rfl

/-! ## The third stretch: the edges' weights -/

theorem third_weight : StableHlo.after hostOps0_2 Wv (Proc.devRef .tc main_v28) = weightOf (F := Ideal) (Wv (Proc.devRef .tc main_v13)) (Wv (Proc.devRef .tc main_v1)) (Wv (Proc.devRef .tc main_v3)) := by
  after_results_simp <;> rfl

/-! ## After the first launch: the convolution branch, `max · 0`, the two branches side by side -/

theorem conv_one : StableHlo.after hostOps1 Wv (Proc.devRef .tc main_v45)
    = agg64 (F := Ideal) (Wv (Proc.devRef .tc main_v29_1)) (Wv (Proc.devRef .tc main_v1)) (Wv (Proc.devRef .tc main_v3)) (Wv (Proc.devRef .tc main_v28)) (Wv (Proc.devRef .tc main_arg4)) := by
  after_results_simp <;> rfl

theorem conv_one_keeps : StableHlo.after hostOps1 Wv (Proc.devRef .tc main_v29_0) = (Wv (Proc.devRef .tc main_v29_0)) := by
  after_results_simp <;> rfl

theorem relu_one : StableHlo.after hostOps1_1 Wv (Proc.devRef .tc main_v46)
    = maximumf (F := Ideal) (Wv (Proc.devRef .tc main_v45)) (broadcastInDim S100000x64 ![] Facts₀.bcast_S_S100000x64 (constant S_ .f32 0x00000000#32)) := by
  after_results_simp <;> rfl

theorem relu_one_keeps : StableHlo.after hostOps1_1 Wv (Proc.devRef .tc main_v29_0) = (Wv (Proc.devRef .tc main_v29_0)) := by
  after_results_simp <;> rfl

theorem join_one : StableHlo.after hostOps1_2 Wv (Proc.devRef .tc main_v47) = beside (F := Ideal) (Wv (Proc.devRef .tc main_v29_0)) (Wv (Proc.devRef .tc main_v46)) := by
  after_results_simp <;> rfl

/-! ## After the second launch: the convolution branch, `max · 0` -/

theorem conv_two : StableHlo.after hostOps2 Wv (Proc.devRef .tc main_v64)
    = agg64 (F := Ideal) (Wv (Proc.devRef .tc main_v48_1)) (Wv (Proc.devRef .tc main_v1)) (Wv (Proc.devRef .tc main_v3)) (Wv (Proc.devRef .tc main_v28)) (Wv (Proc.devRef .tc main_arg8)) := by
  after_results_simp <;> rfl

theorem conv_two_keeps : StableHlo.after hostOps2 Wv (Proc.devRef .tc main_v48_0) = (Wv (Proc.devRef .tc main_v48_0)) := by
  after_results_simp <;> rfl

theorem relu_two : StableHlo.after hostOps2_1 Wv (Proc.devRef .tc main_v65)
    = maximumf (F := Ideal) (Wv (Proc.devRef .tc main_v64)) (broadcastInDim S100000x64 ![] Facts₀.bcast_S_S100000x64 (constant S_ .f32 0x00000000#32)) := by
  after_results_simp <;> rfl

theorem relu_two_keeps : StableHlo.after hostOps2_1 Wv (Proc.devRef .tc main_v48_0) = (Wv (Proc.devRef .tc main_v48_0)) := by
  after_results_simp <;> rfl

/-! ## After the third launch: the head's convolution branch added to its dense branch -/

theorem last_sum : StableHlo.after hostOps3 Wv (Proc.devRef .tc main_v82)
    = addf (F := Ideal) (Wv (Proc.devRef .tc main_v66_0))
        (agg1 (Wv (Proc.devRef .tc main_v66_1)) (Wv (Proc.devRef .tc main_v1)) (Wv (Proc.devRef .tc main_v3)) (Wv (Proc.devRef .tc main_v28)) (Wv (Proc.devRef .tc main_arg12))) := by
  after_results_simp <;> rfl

end Cert.KernelIdeal.Whole

end
-- ==== Proof.Carry.lean ====
/-
  What the buffers that outlive a segment hold at each segment boundary.

  The edge list's two rows and the edge weights are computed once, by the first stretch of host operations, and read
  by every later convolution; each weight matrix and bias is an argument, read by one launch or one stretch. No later
  host operation and no launch writes any of them, so at every boundary they still hold what the first stretch made of
  the edge list, or what was launched. One lemma per buffer and boundary: a stretch of host operations that does not
  write the buffer leaves it (the operations' result buffers are all different from it), and a launch leaves every
  buffer that is not one of its arrays.
-/
import proofs.«138869_j22909355557015_1_alg».proof.Proof.Gen.KernelIdeal.Frame
import proofs.«138869_j22909355557015_1_alg».proof.Proof.Stretches

set_option maxRecDepth 16384

noncomputable section

namespace Cert.KernelIdeal.Whole

open Cert.KernelIdeal Cert.KernelIdeal.Gen Cert.Gcn
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

theorem val3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem val3_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp <;> rfl

theorem val3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem val3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem val3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem val3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem val3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

theorem val3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

theorem val3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl

theorem val3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp <;> rfl

theorem val3_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results_simp <;> rfl

theorem val3_arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  after_results_simp <;> rfl

theorem val3_arg12 : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  after_results_simp <;> rfl

theorem val3_v1 : W3 m ρ c (Proc.devRef .tc main_v1) = src (m ((c : Thread nD τ).loc main_arg13)) := by
  show StableHlo.after hostOps0_2 (StableHlo.after hostOps0_1 (StableHlo.after hostOps0 (W0 m ρ c))) (Proc.devRef .tc main_v1) = _
  after_results_simp <;> rfl

theorem val3_v3 : W3 m ρ c (Proc.devRef .tc main_v3) = dst (m ((c : Thread nD τ).loc main_arg13)) := by
  show StableHlo.after hostOps0_2 (StableHlo.after hostOps0_1 (StableHlo.after hostOps0 (W0 m ρ c))) (Proc.devRef .tc main_v3) = _
  after_results_simp <;> rfl

/-! ### The edges' weights, stretch by stretch: the mask and the inverse square root, the `where`, the two gathers -/

theorem val1_v9 : W1 m ρ c (Proc.devRef .tc main_v9) = degPositive (F := Ideal) (m ((c : Thread nD τ).loc main_arg13)) := first_positive (W0 m ρ c)

theorem val1_v12 : W1 m ρ c (Proc.devRef .tc main_v12) = degRsqrt (F := Ideal) (m ((c : Thread nD τ).loc main_arg13)) := first_rsqrt (W0 m ρ c)

theorem val1_cst_3 : W1 m ρ c (Proc.devRef .tc main_cst_3) = constant (F := Ideal) S_ .f32 0x00000000#32 := first_zero (W0 m ρ c)

theorem val2_v1 : W2 m ρ c (Proc.devRef .tc main_v1) = src (m ((c : Thread nD τ).loc main_arg13)) := (where_src (W1 m ρ c)).trans (first_src (W0 m ρ c))

theorem val2_v3 : W2 m ρ c (Proc.devRef .tc main_v3) = dst (m ((c : Thread nD τ).loc main_arg13)) := (where_dst (W1 m ρ c)).trans (first_dst (W0 m ρ c))

theorem val2_v13 : W2 m ρ c (Proc.devRef .tc main_v13) = dinv (F := Ideal) (m ((c : Thread nD τ).loc main_arg13)) := by
  refine (where_call (W1 m ρ c)).trans ?_
  rw [val1_v9, val1_v12, val1_cst_3]
  rfl

theorem val3_v28 : W3 m ρ c (Proc.devRef .tc main_v28) = edgeWeight (F := Ideal) (m ((c : Thread nD τ).loc main_arg13)) := by
  refine (third_weight (W2 m ρ c)).trans ?_
  rw [val2_v13, val2_v1, val2_v3]
  rfl

theorem val4_v1 : W4 m ρ c (Proc.devRef .tc main_v1) = src (m ((c : Thread nD τ).loc main_arg13)) :=
  (W4_of_ne m ρ c main_v1 (by decide)).trans (val3_v1 m ρ c)

theorem val4_v3 : W4 m ρ c (Proc.devRef .tc main_v3) = dst (m ((c : Thread nD τ).loc main_arg13)) :=
  (W4_of_ne m ρ c main_v3 (by decide)).trans (val3_v3 m ρ c)

theorem val4_v28 : W4 m ρ c (Proc.devRef .tc main_v28) = edgeWeight (F := Ideal) (m ((c : Thread nD τ).loc main_arg13)) :=
  (W4_of_ne m ρ c main_v28 (by decide)).trans (val3_v28 m ρ c)

theorem val4_arg4 : W4 m ρ c (Proc.devRef .tc main_arg4) = m ((c : Thread nD τ).loc main_arg4) :=
  (W4_of_ne m ρ c main_arg4 (by decide)).trans (val3_arg4 m ρ c)

theorem val4_arg5 : W4 m ρ c (Proc.devRef .tc main_arg5) = m ((c : Thread nD τ).loc main_arg5) :=
  (W4_of_ne m ρ c main_arg5 (by decide)).trans (val3_arg5 m ρ c)

theorem val4_arg6 : W4 m ρ c (Proc.devRef .tc main_arg6) = m ((c : Thread nD τ).loc main_arg6) :=
  (W4_of_ne m ρ c main_arg6 (by decide)).trans (val3_arg6 m ρ c)

theorem val4_arg7 : W4 m ρ c (Proc.devRef .tc main_arg7) = m ((c : Thread nD τ).loc main_arg7) :=
  (W4_of_ne m ρ c main_arg7 (by decide)).trans (val3_arg7 m ρ c)

theorem val4_arg8 : W4 m ρ c (Proc.devRef .tc main_arg8) = m ((c : Thread nD τ).loc main_arg8) :=
  (W4_of_ne m ρ c main_arg8 (by decide)).trans (val3_arg8 m ρ c)

theorem val4_arg9 : W4 m ρ c (Proc.devRef .tc main_arg9) = m ((c : Thread nD τ).loc main_arg9) :=
  (W4_of_ne m ρ c main_arg9 (by decide)).trans (val3_arg9 m ρ c)

theorem val4_arg10 : W4 m ρ c (Proc.devRef .tc main_arg10) = m ((c : Thread nD τ).loc main_arg10) :=
  (W4_of_ne m ρ c main_arg10 (by decide)).trans (val3_arg10 m ρ c)

theorem val4_arg11 : W4 m ρ c (Proc.devRef .tc main_arg11) = m ((c : Thread nD τ).loc main_arg11) :=
  (W4_of_ne m ρ c main_arg11 (by decide)).trans (val3_arg11 m ρ c)

theorem val4_arg12 : W4 m ρ c (Proc.devRef .tc main_arg12) = m ((c : Thread nD τ).loc main_arg12) :=
  (W4_of_ne m ρ c main_arg12 (by decide)).trans (val3_arg12 m ρ c)

theorem val7_v1 : W7 m ρ c (Proc.devRef .tc main_v1) = src (m ((c : Thread nD τ).loc main_arg13)) := by
  refine Eq.trans ?_ (val4_v1 m ρ c)
  show StableHlo.after hostOps1_2 (StableHlo.after hostOps1_1 (StableHlo.after hostOps1 (W4 m ρ c))) (Proc.devRef .tc main_v1) = _
  after_results_simp <;> rfl

theorem val7_v3 : W7 m ρ c (Proc.devRef .tc main_v3) = dst (m ((c : Thread nD τ).loc main_arg13)) := by
  refine Eq.trans ?_ (val4_v3 m ρ c)
  show StableHlo.after hostOps1_2 (StableHlo.after hostOps1_1 (StableHlo.after hostOps1 (W4 m ρ c))) (Proc.devRef .tc main_v3) = _
  after_results_simp <;> rfl

theorem val7_v28 : W7 m ρ c (Proc.devRef .tc main_v28) = edgeWeight (F := Ideal) (m ((c : Thread nD τ).loc main_arg13)) := by
  refine Eq.trans ?_ (val4_v28 m ρ c)
  show StableHlo.after hostOps1_2 (StableHlo.after hostOps1_1 (StableHlo.after hostOps1 (W4 m ρ c))) (Proc.devRef .tc main_v28) = _
  after_results_simp <;> rfl

theorem val7_arg5 : W7 m ρ c (Proc.devRef .tc main_arg5) = m ((c : Thread nD τ).loc main_arg5) := by
  refine Eq.trans ?_ (val4_arg5 m ρ c)
  show StableHlo.after hostOps1_2 (StableHlo.after hostOps1_1 (StableHlo.after hostOps1 (W4 m ρ c))) (Proc.devRef .tc main_arg5) = _
  after_results_simp <;> rfl

theorem val7_arg6 : W7 m ρ c (Proc.devRef .tc main_arg6) = m ((c : Thread nD τ).loc main_arg6) := by
  refine Eq.trans ?_ (val4_arg6 m ρ c)
  show StableHlo.after hostOps1_2 (StableHlo.after hostOps1_1 (StableHlo.after hostOps1 (W4 m ρ c))) (Proc.devRef .tc main_arg6) = _
  after_results_simp <;> rfl

theorem val7_arg7 : W7 m ρ c (Proc.devRef .tc main_arg7) = m ((c : Thread nD τ).loc main_arg7) := by
  refine Eq.trans ?_ (val4_arg7 m ρ c)
  show StableHlo.after hostOps1_2 (StableHlo.after hostOps1_1 (StableHlo.after hostOps1 (W4 m ρ c))) (Proc.devRef .tc main_arg7) = _
  after_results_simp <;> rfl

theorem val7_arg8 : W7 m ρ c (Proc.devRef .tc main_arg8) = m ((c : Thread nD τ).loc main_arg8) := by
  refine Eq.trans ?_ (val4_arg8 m ρ c)
  show StableHlo.after hostOps1_2 (StableHlo.after hostOps1_1 (StableHlo.after hostOps1 (W4 m ρ c))) (Proc.devRef .tc main_arg8) = _
  after_results_simp <;> rfl

theorem val7_arg9 : W7 m ρ c (Proc.devRef .tc main_arg9) = m ((c : Thread nD τ).loc main_arg9) := by
  refine Eq.trans ?_ (val4_arg9 m ρ c)
  show StableHlo.after hostOps1_2 (StableHlo.after hostOps1_1 (StableHlo.after hostOps1 (W4 m ρ c))) (Proc.devRef .tc main_arg9) = _
  after_results_simp <;> rfl

theorem val7_arg10 : W7 m ρ c (Proc.devRef .tc main_arg10) = m ((c : Thread nD τ).loc main_arg10) := by
  refine Eq.trans ?_ (val4_arg10 m ρ c)
  show StableHlo.after hostOps1_2 (StableHlo.after hostOps1_1 (StableHlo.after hostOps1 (W4 m ρ c))) (Proc.devRef .tc main_arg10) = _
  after_results_simp <;> rfl

theorem val7_arg11 : W7 m ρ c (Proc.devRef .tc main_arg11) = m ((c : Thread nD τ).loc main_arg11) := by
  refine Eq.trans ?_ (val4_arg11 m ρ c)
  show StableHlo.after hostOps1_2 (StableHlo.after hostOps1_1 (StableHlo.after hostOps1 (W4 m ρ c))) (Proc.devRef .tc main_arg11) = _
  after_results_simp <;> rfl

theorem val7_arg12 : W7 m ρ c (Proc.devRef .tc main_arg12) = m ((c : Thread nD τ).loc main_arg12) := by
  refine Eq.trans ?_ (val4_arg12 m ρ c)
  show StableHlo.after hostOps1_2 (StableHlo.after hostOps1_1 (StableHlo.after hostOps1 (W4 m ρ c))) (Proc.devRef .tc main_arg12) = _
  after_results_simp <;> rfl

theorem val8_v1 : W8 m ρ c (Proc.devRef .tc main_v1) = src (m ((c : Thread nD τ).loc main_arg13)) :=
  (W8_of_ne m ρ c main_v1 (by decide)).trans (val7_v1 m ρ c)

theorem val8_v3 : W8 m ρ c (Proc.devRef .tc main_v3) = dst (m ((c : Thread nD τ).loc main_arg13)) :=
  (W8_of_ne m ρ c main_v3 (by decide)).trans (val7_v3 m ρ c)

theorem val8_v28 : W8 m ρ c (Proc.devRef .tc main_v28) = edgeWeight (F := Ideal) (m ((c : Thread nD τ).loc main_arg13)) :=
  (W8_of_ne m ρ c main_v28 (by decide)).trans (val7_v28 m ρ c)

theorem val8_arg8 : W8 m ρ c (Proc.devRef .tc main_arg8) = m ((c : Thread nD τ).loc main_arg8) :=
  (W8_of_ne m ρ c main_arg8 (by decide)).trans (val7_arg8 m ρ c)

theorem val8_arg9 : W8 m ρ c (Proc.devRef .tc main_arg9) = m ((c : Thread nD τ).loc main_arg9) :=
  (W8_of_ne m ρ c main_arg9 (by decide)).trans (val7_arg9 m ρ c)

theorem val8_arg10 : W8 m ρ c (Proc.devRef .tc main_arg10) = m ((c : Thread nD τ).loc main_arg10) :=
  (W8_of_ne m ρ c main_arg10 (by decide)).trans (val7_arg10 m ρ c)

theorem val8_arg11 : W8 m ρ c (Proc.devRef .tc main_arg11) = m ((c : Thread nD τ).loc main_arg11) :=
  (W8_of_ne m ρ c main_arg11 (by decide)).trans (val7_arg11 m ρ c)

theorem val8_arg12 : W8 m ρ c (Proc.devRef .tc main_arg12) = m ((c : Thread nD τ).loc main_arg12) :=
  (W8_of_ne m ρ c main_arg12 (by decide)).trans (val7_arg12 m ρ c)

theorem val10_v1 : W10 m ρ c (Proc.devRef .tc main_v1) = src (m ((c : Thread nD τ).loc main_arg13)) := by
  refine Eq.trans ?_ (val8_v1 m ρ c)
  show StableHlo.after hostOps2_1 (StableHlo.after hostOps2 (W8 m ρ c)) (Proc.devRef .tc main_v1) = _
  after_results_simp <;> rfl

theorem val10_v3 : W10 m ρ c (Proc.devRef .tc main_v3) = dst (m ((c : Thread nD τ).loc main_arg13)) := by
  refine Eq.trans ?_ (val8_v3 m ρ c)
  show StableHlo.after hostOps2_1 (StableHlo.after hostOps2 (W8 m ρ c)) (Proc.devRef .tc main_v3) = _
  after_results_simp <;> rfl

theorem val10_v28 : W10 m ρ c (Proc.devRef .tc main_v28) = edgeWeight (F := Ideal) (m ((c : Thread nD τ).loc main_arg13)) := by
  refine Eq.trans ?_ (val8_v28 m ρ c)
  show StableHlo.after hostOps2_1 (StableHlo.after hostOps2 (W8 m ρ c)) (Proc.devRef .tc main_v28) = _
  after_results_simp <;> rfl

theorem val10_arg9 : W10 m ρ c (Proc.devRef .tc main_arg9) = m ((c : Thread nD τ).loc main_arg9) := by
  refine Eq.trans ?_ (val8_arg9 m ρ c)
  show StableHlo.after hostOps2_1 (StableHlo.after hostOps2 (W8 m ρ c)) (Proc.devRef .tc main_arg9) = _
  after_results_simp <;> rfl

theorem val10_arg10 : W10 m ρ c (Proc.devRef .tc main_arg10) = m ((c : Thread nD τ).loc main_arg10) := by
  refine Eq.trans ?_ (val8_arg10 m ρ c)
  show StableHlo.after hostOps2_1 (StableHlo.after hostOps2 (W8 m ρ c)) (Proc.devRef .tc main_arg10) = _
  after_results_simp <;> rfl

theorem val10_arg11 : W10 m ρ c (Proc.devRef .tc main_arg11) = m ((c : Thread nD τ).loc main_arg11) := by
  refine Eq.trans ?_ (val8_arg11 m ρ c)
  show StableHlo.after hostOps2_1 (StableHlo.after hostOps2 (W8 m ρ c)) (Proc.devRef .tc main_arg11) = _
  after_results_simp <;> rfl

theorem val10_arg12 : W10 m ρ c (Proc.devRef .tc main_arg12) = m ((c : Thread nD τ).loc main_arg12) := by
  refine Eq.trans ?_ (val8_arg12 m ρ c)
  show StableHlo.after hostOps2_1 (StableHlo.after hostOps2 (W8 m ρ c)) (Proc.devRef .tc main_arg12) = _
  after_results_simp <;> rfl

theorem val11_v1 : W11 m ρ c (Proc.devRef .tc main_v1) = src (m ((c : Thread nD τ).loc main_arg13)) :=
  (W11_of_ne m ρ c main_v1 (by decide)).trans (val10_v1 m ρ c)

theorem val11_v3 : W11 m ρ c (Proc.devRef .tc main_v3) = dst (m ((c : Thread nD τ).loc main_arg13)) :=
  (W11_of_ne m ρ c main_v3 (by decide)).trans (val10_v3 m ρ c)

theorem val11_v28 : W11 m ρ c (Proc.devRef .tc main_v28) = edgeWeight (F := Ideal) (m ((c : Thread nD τ).loc main_arg13)) :=
  (W11_of_ne m ρ c main_v28 (by decide)).trans (val10_v28 m ρ c)

theorem val11_arg12 : W11 m ρ c (Proc.devRef .tc main_arg12) = m ((c : Thread nD τ).loc main_arg12) :=
  (W11_of_ne m ρ c main_arg12 (by decide)).trans (val10_arg12 m ρ c)

end Cert.KernelIdeal.Whole

end
-- ==== Proof.Region0.lean ====
/-
  The first launch's two output arrays as whole-array functions of what the launch finds in memory.

  The grid has ten points; point `t` takes rows `10000·t … 10000·t + 9999` of the input and the whole of both
  weight matrices and of the bias, and writes back the same rows of both outputs. What it writes for row `p` of its
  block is the layer's entry at row `10000·t + p` of the whole array, so each output array ends as the whole-array
  layer: the ten row blocks tile the 100000 rows.
-/
import proofs.«138869_j22909355557015_1_alg».proof.Proof.Gen.KernelIdeal.Frame
import proofs.«138869_j22909355557015_1_alg».proof.Proof.Dense

set_option maxRecDepth 16384

noncomputable section

namespace Cert.Gcn.First

open Cert.KernelIdeal Cert.KernelIdeal.Gen Cert.Gcn
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps, decided over the ten grid points: the row-block windows sit at block `t`, the others at block 0. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `10000·t + p` of the array. -/
def row (t : Fin cfg0.N) (p : Fin 10000) : Fin 100000 :=
  ⟨t.val * 10000 + p.val, by have hN : cfg0.N = 10 := N_0; have := t.isLt; have := p.isLt; omega⟩

/-! ## Where a block's entries sit in their arrays -/

theorem emb_in (t : Fin cfg0.N) (p : Fin 10000) (e : Fin 128) :
    ((cfg0.win 0).blk t).view.emb (ix2 p e) = ix2 (row t p) e := by
  obtain ⟨h0, h1, -⟩ := idx t
  funext a; apply Fin.ext
  match a with
  | ⟨0, _⟩ => show win0_0.index t (0 : Fin 2) * 10000 + 1 * p.val = t.val * 10000 + p.val; omega
  | ⟨1, _⟩ => show win0_0.index t (1 : Fin 2) * 128 + 1 * e.val = e.val; omega

theorem emb_w1 (t : Fin cfg0.N) (e : Fin 128) (q : Fin 64) :
    ((cfg0.win 1).blk t).view.emb (ix2 e q) = ix2 e q := by
  obtain ⟨-, -, h0, h1, -⟩ := idx t
  funext a; apply Fin.ext
  match a with
  | ⟨0, _⟩ => show win0_1.index t (0 : Fin 2) * 128 + 1 * e.val = e.val; omega
  | ⟨1, _⟩ => show win0_1.index t (1 : Fin 2) * 64 + 1 * q.val = q.val; omega

theorem emb_b (t : Fin cfg0.N) (q : Fin 64) :
    ((cfg0.win 2).blk t).view.emb (ix1 q) = ix1 q := by
  obtain ⟨-, -, -, -, h0, -⟩ := idx t
  funext a; apply Fin.ext
  match a with
  | ⟨0, _⟩ => show win0_2.index t (0 : Fin 1) * 64 + 1 * q.val = q.val; omega

theorem emb_w3 (t : Fin cfg0.N) (e : Fin 128) (q : Fin 64) :
    ((cfg0.win 3).blk t).view.emb (ix2 e q) = ix2 e q := by
  obtain ⟨-, -, -, -, -, h0, h1, -⟩ := idx t
  funext a; apply Fin.ext
  match a with
  | ⟨0, _⟩ => show win0_3.index t (0 : Fin 2) * 128 + 1 * e.val = e.val; omega
  | ⟨1, _⟩ => show win0_3.index t (1 : Fin 2) * 64 + 1 * q.val = q.val; omega

theorem emb_o1 (t : Fin cfg0.N) (p : Fin 10000) (q : Fin 64) :
    ((cfg0.win 4).blk t).view.emb (ix2 p q) = ix2 (row t p) q := by
  obtain ⟨-, -, -, -, -, -, -, h0, h1, -⟩ := idx t
  funext a; apply Fin.ext
  match a with
  | ⟨0, _⟩ => show win0_4.index t (0 : Fin 2) * 10000 + 1 * p.val = t.val * 10000 + p.val; omega
  | ⟨1, _⟩ => show win0_4.index t (1 : Fin 2) * 64 + 1 * q.val = q.val; omega

theorem emb_o2 (t : Fin cfg0.N) (p : Fin 10000) (q : Fin 64) :
    ((cfg0.win 5).blk t).view.emb (ix2 p q) = ix2 (row t p) q := by
  obtain ⟨-, -, -, -, -, -, -, -, -, h0, h1⟩ := idx t
  funext a; apply Fin.ext
  match a with
  | ⟨0, _⟩ => show win0_5.index t (0 : Fin 2) * 10000 + 1 * p.val = t.val * 10000 + p.val; omega
  | ⟨1, _⟩ => show win0_5.index t (1 : Fin 2) * 64 + 1 * q.val = q.val; omega

/-! ## A block read at an entry is the array read at the entry's place -/

theorem read_in (c : Dev nD) (t : Fin cfg0.N) (p : Fin 10000) (e : Fin 128) :
    (iblk0 V c 0 t : Vec Ideal S10000x128 .f32) (ix2 p e) = (V c main_arg0 : FVec Ideal S100000x128 .f32) (ix2 (row t p) e) := by
  show (V c main_arg0 : FVec Ideal S100000x128 .f32) (((cfg0.win 0).blk t).view.emb (ix2 p e)) = _
  rw [emb_in]

theorem read_w1 (c : Dev nD) (t : Fin cfg0.N) (e : Fin 128) (q : Fin 64) :
    (iblk0 V c 1 t : Vec Ideal S128x64 .f32) (ix2 e q) = (V c main_arg1 : FVec Ideal S128x64 .f32) (ix2 e q) := by
  show (V c main_arg1 : FVec Ideal S128x64 .f32) (((cfg0.win 1).blk t).view.emb (ix2 e q)) = _
  rw [emb_w1]

theorem read_b (c : Dev nD) (t : Fin cfg0.N) (q : Fin 64) :
    (iblk0 V c 2 t : Vec Ideal S64 .f32) (ix1 q) = (V c main_arg2 : FVec Ideal S64 .f32) (ix1 q) := by
  show (V c main_arg2 : FVec Ideal S64 .f32) (((cfg0.win 2).blk t).view.emb (ix1 q)) = _
  rw [emb_b]

theorem read_w3 (c : Dev nD) (t : Fin cfg0.N) (e : Fin 128) (q : Fin 64) :
    (iblk0 V c 3 t : Vec Ideal S128x64 .f32) (ix2 e q) = (V c main_arg3 : FVec Ideal S128x64 .f32) (ix2 e q) := by
  show (V c main_arg3 : FVec Ideal S128x64 .f32) (((cfg0.win 3).blk t).view.emb (ix2 e q)) = _
  rw [emb_w3]

theorem read_o1 (G : FVec Ideal S100000x64 .f32) (t : Fin cfg0.N) (p : Fin 10000) (q : Fin 64) :
    ((cfg0.win 4).blk t).view.read (Elt Ideal) G (ix2 p q) = G (ix2 (row t p) q) := by
  show G (((cfg0.win 4).blk t).view.emb (ix2 p q)) = _
  rw [emb_o1]

theorem read_o2 (G : FVec Ideal S100000x64 .f32) (t : Fin cfg0.N) (p : Fin 10000) (q : Fin 64) :
    ((cfg0.win 5).blk t).view.read (Elt Ideal) G (ix2 p q) = G (ix2 (row t p) q) := by
  show G (((cfg0.win 5).blk t).view.emb (ix2 p q)) = _
  rw [emb_o2]

/-! ## What point `t` writes back is its block of the whole-array layer -/

theorem flushed_o1 (c : Dev nD) (t : Fin cfg0.N) :
    (dat0 V c).flushed 4 t = ((cfg0.win 4).blk t).view.read (Elt Ideal)
      (relu64 (F := Ideal) (addf (lin64 (V c main_arg0) (V c main_arg1)) (bias64 (V c main_arg2)))) := by
  show (cfg0.win 4).cut (grid0.coords t) ((dat0 V c).after 4 t) = _
  rw [after0_4]
  unfold out0_4
  rw [View.canon_unit_zero hz2]
  simp only [View.ld_unit_zero (S := S10000x128) hz2, View.ld_unit_zero (S := S128x64) hz2, View.ld_unit_zero (S := S64) hz1]
  funext j
  obtain ⟨p, q, rfl⟩ : ∃ (p : Fin 10000) (q : Fin 64), j = ix2 p q := ⟨j 0, j 1, eq_ix2 j⟩
  refine (pay0_2_apply (iblk0 V c 0 t) (iblk0 V c 1 t) (iblk0 V c 2 t) p q).trans ?_
  refine Eq.trans (congrArg₂ (fun s b' => max (s + b') (0 : EReal))
    (Finset.sum_congr rfl fun e _ => congrArg₂ (· * ·) (read_in V c t p e) (read_w1 V c t e q)) (read_b V c t q)) ?_
  refine Eq.trans ?_ (read_o1 _ t p q).symm
  exact (affine_relu_apply _ _ _ (row t p) q).symm

theorem flushed_o2 (c : Dev nD) (t : Fin cfg0.N) :
    (dat0 V c).flushed 5 t = ((cfg0.win 5).blk t).view.read (Elt Ideal) (lin64 (F := Ideal) (V c main_arg0) (V c main_arg3)) := by
  show (cfg0.win 5).cut (grid0.coords t) ((dat0 V c).after 5 t) = _
  rw [after0_5]
  unfold out0_5
  rw [View.canon_unit_zero hz2]
  simp only [View.ld_unit_zero (S := S10000x128) hz2, View.ld_unit_zero (S := S128x64) hz2]
  funext j
  obtain ⟨p, q, rfl⟩ : ∃ (p : Fin 10000) (q : Fin 64), j = ix2 p q := ⟨j 0, j 1, eq_ix2 j⟩
  refine (pay0_3_apply (iblk0 V c 0 t) (iblk0 V c 3 t) p q).trans ?_
  refine Eq.trans (Finset.sum_congr rfl fun e _ => congrArg₂ (· * ·) (read_in V c t p e) (read_w3 V c t e q)) ?_
  refine Eq.trans ?_ (read_o2 _ t p q).symm
  exact (lin64_apply _ _ (row t p) q).symm

/-! ## The ten row blocks tile the rows -/

theorem mem_o1 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v29_0).slice (win0_4.rect t)).set ↔ _
  rw [View.set_slice_whole, Rect.mem_set_unit]
  exact Iff.rfl

theorem mem_o2 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v29_1).slice (win0_5.rect t)).set ↔ _
  rw [View.set_slice_whole, Rect.mem_set_unit]
  exact Iff.rfl

/-- The point whose block holds row `r` is `r / 10000`. -/
def pointOf (i : S100000x64.Idx) : Fin cfg0.N :=
  ⟨(i 0).val / 10000, by have hN : cfg0.N = 10 := N_0; have h : (i 0).val < 100000 := (i 0).isLt; omega⟩

theorem cover_o1 (i : S100000x64.Idx) : ∃ t : Fin cfg0.N, (cfg0.win 4).flush t = true ∧ i ∈ ((cfg0.win 4).blk t).view.set := by
  obtain ⟨-, -, -, -, -, -, -, h0, h1, -⟩ := idx (pointOf i)
  have hi1 : (i 1).val < 64 := (i 1).isLt
  have ht : (pointOf i).val = (i 0).val / 10000 := rfl
  refine ⟨pointOf i, flush0_4 _, ?_⟩
  rw [mem_o1]
  intro a
  match a with
  | ⟨0, _⟩ => show win0_4.index (pointOf i) (0 : Fin 2) * 10000 ≤ (i 0).val ∧ (i 0).val < win0_4.index (pointOf i) (0 : Fin 2) * 10000 + 10000; omega
  | ⟨1, _⟩ => show win0_4.index (pointOf i) (1 : Fin 2) * 64 ≤ (i 1).val ∧ (i 1).val < win0_4.index (pointOf i) (1 : Fin 2) * 64 + 64; omega

theorem cover_o2 (i : S100000x64.Idx) : ∃ t : Fin cfg0.N, (cfg0.win 5).flush t = true ∧ i ∈ ((cfg0.win 5).blk t).view.set := by
  obtain ⟨-, -, -, -, -, -, -, -, -, h0, h1⟩ := idx (pointOf i)
  have hi1 : (i 1).val < 64 := (i 1).isLt
  have ht : (pointOf i).val = (i 0).val / 10000 := rfl
  refine ⟨pointOf i, flush0_5 _, ?_⟩
  rw [mem_o2]
  intro a
  match a with
  | ⟨0, _⟩ => show win0_5.index (pointOf i) (0 : Fin 2) * 10000 ≤ (i 0).val ∧ (i 0).val < win0_5.index (pointOf i) (0 : Fin 2) * 10000 + 10000; omega
  | ⟨1, _⟩ => show win0_5.index (pointOf i) (1 : Fin 2) * 64 ≤ (i 1).val ∧ (i 1).val < win0_5.index (pointOf i) (1 : Fin 2) * 64 + 64; omega

/-! ## The arrays after the launch -/

/-- The first output array ends as `max (x·W₁ + b) 0` of the arrays the launch found. -/
theorem arr_o1 (c : Dev nD) :
    (dat0 V c).arrAt 4 cfg0.N = relu64 (F := Ideal) (addf (lin64 (V c main_arg0) (V c main_arg1)) (bias64 (V c main_arg2))) :=
  (dat0 V c).arrAt_eq_of_cover 4 _ (fun t _ => flushed_o1 V c t) cover_o1

/-- The second output array ends as `x·W₂` of the arrays the launch found. -/
theorem arr_o2 (c : Dev nD) :
    (dat0 V c).arrAt 5 cfg0.N = lin64 (F := Ideal) (V c main_arg0) (V c main_arg3) :=
  (dat0 V c).arrAt_eq_of_cover 5 _ (fun t _ => flushed_o2 V c t) cover_o2

end Cert.Gcn.First

end
-- ==== Proof.Region1.lean ====
/-
  The second launch's two output arrays as whole-array functions of what the launch finds in memory.

  The grid has ten points; point `t` takes rows `10000·t … 10000·t + 9999` of the input and the whole of both
  weight matrices and of the bias, and writes back the same rows of both outputs. What it writes for row `p` of its
  block is the layer's entry at row `10000·t + p` of the whole array, so each output array ends as the whole-array
  layer: the ten row blocks tile the 100000 rows.
-/
import proofs.«138869_j22909355557015_1_alg».proof.Proof.Gen.KernelIdeal.Frame
import proofs.«138869_j22909355557015_1_alg».proof.Proof.Dense

set_option maxRecDepth 16384

noncomputable section

namespace Cert.Gcn.Second

open Cert.KernelIdeal Cert.KernelIdeal.Gen Cert.Gcn
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps, decided over the ten grid points: the row-block windows sit at block `t`, the others at block 0. -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `10000·t + p` of the array. -/
def row (t : Fin cfg1.N) (p : Fin 10000) : Fin 100000 :=
  ⟨t.val * 10000 + p.val, by have hN : cfg1.N = 10 := N_1; have := t.isLt; have := p.isLt; omega⟩

/-! ## Where a block's entries sit in their arrays -/

theorem emb_in (t : Fin cfg1.N) (p : Fin 10000) (e : Fin 128) :
    ((cfg1.win 0).blk t).view.emb (ix2 p e) = ix2 (row t p) e := by
  obtain ⟨h0, h1, -⟩ := idx t
  funext a; apply Fin.ext
  match a with
  | ⟨0, _⟩ => show win1_0.index t (0 : Fin 2) * 10000 + 1 * p.val = t.val * 10000 + p.val; omega
  | ⟨1, _⟩ => show win1_0.index t (1 : Fin 2) * 128 + 1 * e.val = e.val; omega

theorem emb_w1 (t : Fin cfg1.N) (e : Fin 128) (q : Fin 64) :
    ((cfg1.win 1).blk t).view.emb (ix2 e q) = ix2 e q := by
  obtain ⟨-, -, h0, h1, -⟩ := idx t
  funext a; apply Fin.ext
  match a with
  | ⟨0, _⟩ => show win1_1.index t (0 : Fin 2) * 128 + 1 * e.val = e.val; omega
  | ⟨1, _⟩ => show win1_1.index t (1 : Fin 2) * 64 + 1 * q.val = q.val; omega

theorem emb_b (t : Fin cfg1.N) (q : Fin 64) :
    ((cfg1.win 2).blk t).view.emb (ix1 q) = ix1 q := by
  obtain ⟨-, -, -, -, h0, -⟩ := idx t
  funext a; apply Fin.ext
  match a with
  | ⟨0, _⟩ => show win1_2.index t (0 : Fin 1) * 64 + 1 * q.val = q.val; omega

theorem emb_w3 (t : Fin cfg1.N) (e : Fin 128) (q : Fin 64) :
    ((cfg1.win 3).blk t).view.emb (ix2 e q) = ix2 e q := by
  obtain ⟨-, -, -, -, -, h0, h1, -⟩ := idx t
  funext a; apply Fin.ext
  match a with
  | ⟨0, _⟩ => show win1_3.index t (0 : Fin 2) * 128 + 1 * e.val = e.val; omega
  | ⟨1, _⟩ => show win1_3.index t (1 : Fin 2) * 64 + 1 * q.val = q.val; omega

theorem emb_o1 (t : Fin cfg1.N) (p : Fin 10000) (q : Fin 64) :
    ((cfg1.win 4).blk t).view.emb (ix2 p q) = ix2 (row t p) q := by
  obtain ⟨-, -, -, -, -, -, -, h0, h1, -⟩ := idx t
  funext a; apply Fin.ext
  match a with
  | ⟨0, _⟩ => show win1_4.index t (0 : Fin 2) * 10000 + 1 * p.val = t.val * 10000 + p.val; omega
  | ⟨1, _⟩ => show win1_4.index t (1 : Fin 2) * 64 + 1 * q.val = q.val; omega

theorem emb_o2 (t : Fin cfg1.N) (p : Fin 10000) (q : Fin 64) :
    ((cfg1.win 5).blk t).view.emb (ix2 p q) = ix2 (row t p) q := by
  obtain ⟨-, -, -, -, -, -, -, -, -, h0, h1⟩ := idx t
  funext a; apply Fin.ext
  match a with
  | ⟨0, _⟩ => show win1_5.index t (0 : Fin 2) * 10000 + 1 * p.val = t.val * 10000 + p.val; omega
  | ⟨1, _⟩ => show win1_5.index t (1 : Fin 2) * 64 + 1 * q.val = q.val; omega

/-! ## A block read at an entry is the array read at the entry's place -/

theorem read_in (c : Dev nD) (t : Fin cfg1.N) (p : Fin 10000) (e : Fin 128) :
    (iblk1 V c 0 t : Vec Ideal S10000x128 .f32) (ix2 p e) = (V c main_v47 : FVec Ideal S100000x128 .f32) (ix2 (row t p) e) := by
  show (V c main_v47 : FVec Ideal S100000x128 .f32) (((cfg1.win 0).blk t).view.emb (ix2 p e)) = _
  rw [emb_in]

theorem read_w1 (c : Dev nD) (t : Fin cfg1.N) (e : Fin 128) (q : Fin 64) :
    (iblk1 V c 1 t : Vec Ideal S128x64 .f32) (ix2 e q) = (V c main_arg5 : FVec Ideal S128x64 .f32) (ix2 e q) := by
  show (V c main_arg5 : FVec Ideal S128x64 .f32) (((cfg1.win 1).blk t).view.emb (ix2 e q)) = _
  rw [emb_w1]

theorem read_b (c : Dev nD) (t : Fin cfg1.N) (q : Fin 64) :
    (iblk1 V c 2 t : Vec Ideal S64 .f32) (ix1 q) = (V c main_arg6 : FVec Ideal S64 .f32) (ix1 q) := by
  show (V c main_arg6 : FVec Ideal S64 .f32) (((cfg1.win 2).blk t).view.emb (ix1 q)) = _
  rw [emb_b]

theorem read_w3 (c : Dev nD) (t : Fin cfg1.N) (e : Fin 128) (q : Fin 64) :
    (iblk1 V c 3 t : Vec Ideal S128x64 .f32) (ix2 e q) = (V c main_arg7 : FVec Ideal S128x64 .f32) (ix2 e q) := by
  show (V c main_arg7 : FVec Ideal S128x64 .f32) (((cfg1.win 3).blk t).view.emb (ix2 e q)) = _
  rw [emb_w3]

theorem read_o1 (G : FVec Ideal S100000x64 .f32) (t : Fin cfg1.N) (p : Fin 10000) (q : Fin 64) :
    ((cfg1.win 4).blk t).view.read (Elt Ideal) G (ix2 p q) = G (ix2 (row t p) q) := by
  show G (((cfg1.win 4).blk t).view.emb (ix2 p q)) = _
  rw [emb_o1]

theorem read_o2 (G : FVec Ideal S100000x64 .f32) (t : Fin cfg1.N) (p : Fin 10000) (q : Fin 64) :
    ((cfg1.win 5).blk t).view.read (Elt Ideal) G (ix2 p q) = G (ix2 (row t p) q) := by
  show G (((cfg1.win 5).blk t).view.emb (ix2 p q)) = _
  rw [emb_o2]

/-! ## What point `t` writes back is its block of the whole-array layer -/

theorem flushed_o1 (c : Dev nD) (t : Fin cfg1.N) :
    (dat1 V c).flushed 4 t = ((cfg1.win 4).blk t).view.read (Elt Ideal)
      (relu64 (F := Ideal) (addf (lin64 (V c main_v47) (V c main_arg5)) (bias64 (V c main_arg6)))) := by
  show (cfg1.win 4).cut (grid1.coords t) ((dat1 V c).after 4 t) = _
  rw [after1_4]
  unfold out1_4
  rw [View.canon_unit_zero hz2]
  simp only [View.ld_unit_zero (S := S10000x128) hz2, View.ld_unit_zero (S := S128x64) hz2, View.ld_unit_zero (S := S64) hz1]
  funext j
  obtain ⟨p, q, rfl⟩ : ∃ (p : Fin 10000) (q : Fin 64), j = ix2 p q := ⟨j 0, j 1, eq_ix2 j⟩
  refine (pay1_2_apply (iblk1 V c 0 t) (iblk1 V c 1 t) (iblk1 V c 2 t) p q).trans ?_
  refine Eq.trans (congrArg₂ (fun s b' => max (s + b') (0 : EReal))
    (Finset.sum_congr rfl fun e _ => congrArg₂ (· * ·) (read_in V c t p e) (read_w1 V c t e q)) (read_b V c t q)) ?_
  refine Eq.trans ?_ (read_o1 _ t p q).symm
  exact (affine_relu_apply _ _ _ (row t p) q).symm

theorem flushed_o2 (c : Dev nD) (t : Fin cfg1.N) :
    (dat1 V c).flushed 5 t = ((cfg1.win 5).blk t).view.read (Elt Ideal) (lin64 (F := Ideal) (V c main_v47) (V c main_arg7)) := by
  show (cfg1.win 5).cut (grid1.coords t) ((dat1 V c).after 5 t) = _
  rw [after1_5]
  unfold out1_5
  rw [View.canon_unit_zero hz2]
  simp only [View.ld_unit_zero (S := S10000x128) hz2, View.ld_unit_zero (S := S128x64) hz2]
  funext j
  obtain ⟨p, q, rfl⟩ : ∃ (p : Fin 10000) (q : Fin 64), j = ix2 p q := ⟨j 0, j 1, eq_ix2 j⟩
  refine (pay1_3_apply (iblk1 V c 0 t) (iblk1 V c 3 t) p q).trans ?_
  refine Eq.trans (Finset.sum_congr rfl fun e _ => congrArg₂ (· * ·) (read_in V c t p e) (read_w3 V c t e q)) ?_
  refine Eq.trans ?_ (read_o2 _ t p q).symm
  exact (lin64_apply _ _ (row t p) q).symm

/-! ## The ten row blocks tile the rows -/

theorem mem_o1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v48_0).slice (win1_4.rect t)).set ↔ _
  rw [View.set_slice_whole, Rect.mem_set_unit]
  exact Iff.rfl

theorem mem_o2 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v48_1).slice (win1_5.rect t)).set ↔ _
  rw [View.set_slice_whole, Rect.mem_set_unit]
  exact Iff.rfl

/-- The point whose block holds row `r` is `r / 10000`. -/
def pointOf (i : S100000x64.Idx) : Fin cfg1.N :=
  ⟨(i 0).val / 10000, by have hN : cfg1.N = 10 := N_1; have h : (i 0).val < 100000 := (i 0).isLt; omega⟩

theorem cover_o1 (i : S100000x64.Idx) : ∃ t : Fin cfg1.N, (cfg1.win 4).flush t = true ∧ i ∈ ((cfg1.win 4).blk t).view.set := by
  obtain ⟨-, -, -, -, -, -, -, h0, h1, -⟩ := idx (pointOf i)
  have hi1 : (i 1).val < 64 := (i 1).isLt
  have ht : (pointOf i).val = (i 0).val / 10000 := rfl
  refine ⟨pointOf i, flush1_4 _, ?_⟩
  rw [mem_o1]
  intro a
  match a with
  | ⟨0, _⟩ => show win1_4.index (pointOf i) (0 : Fin 2) * 10000 ≤ (i 0).val ∧ (i 0).val < win1_4.index (pointOf i) (0 : Fin 2) * 10000 + 10000; omega
  | ⟨1, _⟩ => show win1_4.index (pointOf i) (1 : Fin 2) * 64 ≤ (i 1).val ∧ (i 1).val < win1_4.index (pointOf i) (1 : Fin 2) * 64 + 64; omega

theorem cover_o2 (i : S100000x64.Idx) : ∃ t : Fin cfg1.N, (cfg1.win 5).flush t = true ∧ i ∈ ((cfg1.win 5).blk t).view.set := by
  obtain ⟨-, -, -, -, -, -, -, -, -, h0, h1⟩ := idx (pointOf i)
  have hi1 : (i 1).val < 64 := (i 1).isLt
  have ht : (pointOf i).val = (i 0).val / 10000 := rfl
  refine ⟨pointOf i, flush1_5 _, ?_⟩
  rw [mem_o2]
  intro a
  match a with
  | ⟨0, _⟩ => show win1_5.index (pointOf i) (0 : Fin 2) * 10000 ≤ (i 0).val ∧ (i 0).val < win1_5.index (pointOf i) (0 : Fin 2) * 10000 + 10000; omega
  | ⟨1, _⟩ => show win1_5.index (pointOf i) (1 : Fin 2) * 64 ≤ (i 1).val ∧ (i 1).val < win1_5.index (pointOf i) (1 : Fin 2) * 64 + 64; omega

/-! ## The arrays after the launch -/

/-- The first output array ends as `max (x·W₁ + b) 0` of the arrays the launch found. -/
theorem arr_o1 (c : Dev nD) :
    (dat1 V c).arrAt 4 cfg1.N = relu64 (F := Ideal) (addf (lin64 (V c main_v47) (V c main_arg5)) (bias64 (V c main_arg6))) :=
  (dat1 V c).arrAt_eq_of_cover 4 _ (fun t _ => flushed_o1 V c t) cover_o1

/-- The second output array ends as `x·W₂` of the arrays the launch found. -/
theorem arr_o2 (c : Dev nD) :
    (dat1 V c).arrAt 5 cfg1.N = lin64 (F := Ideal) (V c main_v47) (V c main_arg7) :=
  (dat1 V c).arrAt_eq_of_cover 5 _ (fun t _ => flushed_o2 V c t) cover_o2

end Cert.Gcn.Second

end
-- ==== Proof.Region2.lean ====
/-
  The third launch's two output arrays as whole-array functions of what the launch finds in memory.

  The grid has ten points; point `t` takes rows `10000·t … 10000·t + 9999` of both `[100000, 64]` inputs and the whole
  of both one-column weight matrices and of the one-entry bias, and writes back the same rows of both one-column
  outputs. What it writes for row `p` of its block is the layer's entry at row `10000·t + p` of the whole array —
  the two inputs' rows are added first —, so each output array ends as the whole-array layer: the ten row blocks
  tile the 100000 rows.
-/
import proofs.«138869_j22909355557015_1_alg».proof.Proof.Gen.KernelIdeal.Frame
import proofs.«138869_j22909355557015_1_alg».proof.Proof.Dense

set_option maxRecDepth 16384

noncomputable section

namespace Cert.Gcn.Third

open Cert.KernelIdeal Cert.KernelIdeal.Gen Cert.Gcn
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps, decided over the ten grid points: the row-block windows sit at block `t`, the others at block 0. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `p` of point `t`'s block is row `10000·t + p` of the array. -/
def row (t : Fin cfg2.N) (p : Fin 10000) : Fin 100000 :=
  ⟨t.val * 10000 + p.val, by have hN : cfg2.N = 10 := N_2; have := t.isLt; have := p.isLt; omega⟩

/-! ## Where a block's entries sit in their arrays -/

theorem emb_x5 (t : Fin cfg2.N) (p : Fin 10000) (e : Fin 64) :
    ((cfg2.win 0).blk t).view.emb (ix2 p e) = ix2 (row t p) e := by
  obtain ⟨h0, h1, -⟩ := idx t
  funext a; apply Fin.ext
  match a with
  | ⟨0, _⟩ => show win2_0.index t (0 : Fin 2) * 10000 + 1 * p.val = t.val * 10000 + p.val; omega
  | ⟨1, _⟩ => show win2_0.index t (1 : Fin 2) * 64 + 1 * e.val = e.val; omega

theorem emb_x6 (t : Fin cfg2.N) (p : Fin 10000) (e : Fin 64) :
    ((cfg2.win 1).blk t).view.emb (ix2 p e) = ix2 (row t p) e := by
  obtain ⟨-, -, h0, h1, -⟩ := idx t
  funext a; apply Fin.ext
  match a with
  | ⟨0, _⟩ => show win2_1.index t (0 : Fin 2) * 10000 + 1 * p.val = t.val * 10000 + p.val; omega
  | ⟨1, _⟩ => show win2_1.index t (1 : Fin 2) * 64 + 1 * e.val = e.val; omega

theorem emb_w9 (t : Fin cfg2.N) (e : Fin 64) (u : Fin 1) :
    ((cfg2.win 2).blk t).view.emb (ix2 e u) = ix2 e u := by
  obtain ⟨-, -, -, -, h0, h1, -⟩ := idx t
  funext a; apply Fin.ext
  match a with
  | ⟨0, _⟩ => show win2_2.index t (0 : Fin 2) * 64 + 1 * e.val = e.val; omega
  | ⟨1, _⟩ => show win2_2.index t (1 : Fin 2) * 1 + 1 * u.val = u.val; omega

theorem emb_b (t : Fin cfg2.N) (u : Fin 1) :
    ((cfg2.win 3).blk t).view.emb (ix1 u) = ix1 u := by
  obtain ⟨-, -, -, -, -, -, h0, -⟩ := idx t
  funext a; apply Fin.ext
  match a with
  | ⟨0, _⟩ => show win2_3.index t (0 : Fin 1) * 1 + 1 * u.val = u.val; omega

theorem emb_w11 (t : Fin cfg2.N) (e : Fin 64) (u : Fin 1) :
    ((cfg2.win 4).blk t).view.emb (ix2 e u) = ix2 e u := by
  obtain ⟨-, -, -, -, -, -, -, h0, h1, -⟩ := idx t
  funext a; apply Fin.ext
  match a with
  | ⟨0, _⟩ => show win2_4.index t (0 : Fin 2) * 64 + 1 * e.val = e.val; omega
  | ⟨1, _⟩ => show win2_4.index t (1 : Fin 2) * 1 + 1 * u.val = u.val; omega

theorem emb_o1 (t : Fin cfg2.N) (p : Fin 10000) (u : Fin 1) :
    ((cfg2.win 5).blk t).view.emb (ix2 p u) = ix2 (row t p) u := by
  obtain ⟨-, -, -, -, -, -, -, -, -, h0, h1, -⟩ := idx t
  funext a; apply Fin.ext
  match a with
  | ⟨0, _⟩ => show win2_5.index t (0 : Fin 2) * 10000 + 1 * p.val = t.val * 10000 + p.val; omega
  | ⟨1, _⟩ => show win2_5.index t (1 : Fin 2) * 1 + 1 * u.val = u.val; omega

theorem emb_o2 (t : Fin cfg2.N) (p : Fin 10000) (u : Fin 1) :
    ((cfg2.win 6).blk t).view.emb (ix2 p u) = ix2 (row t p) u := by
  obtain ⟨-, -, -, -, -, -, -, -, -, -, -, h0, h1⟩ := idx t
  funext a; apply Fin.ext
  match a with
  | ⟨0, _⟩ => show win2_6.index t (0 : Fin 2) * 10000 + 1 * p.val = t.val * 10000 + p.val; omega
  | ⟨1, _⟩ => show win2_6.index t (1 : Fin 2) * 1 + 1 * u.val = u.val; omega

/-! ## A block read at an entry is the array read at the entry's place -/

theorem read_x5 (c : Dev nD) (t : Fin cfg2.N) (p : Fin 10000) (e : Fin 64) :
    (iblk2 V c 0 t : Vec Ideal S10000x64 .f32) (ix2 p e) = (V c main_v48_0 : FVec Ideal S100000x64 .f32) (ix2 (row t p) e) := by
  show (V c main_v48_0 : FVec Ideal S100000x64 .f32) (((cfg2.win 0).blk t).view.emb (ix2 p e)) = _
  rw [emb_x5]

theorem read_x6 (c : Dev nD) (t : Fin cfg2.N) (p : Fin 10000) (e : Fin 64) :
    (iblk2 V c 1 t : Vec Ideal S10000x64 .f32) (ix2 p e) = (V c main_v65 : FVec Ideal S100000x64 .f32) (ix2 (row t p) e) := by
  show (V c main_v65 : FVec Ideal S100000x64 .f32) (((cfg2.win 1).blk t).view.emb (ix2 p e)) = _
  rw [emb_x6]

theorem read_w9 (c : Dev nD) (t : Fin cfg2.N) (e : Fin 64) (u : Fin 1) :
    (iblk2 V c 2 t : Vec Ideal S64x1 .f32) (ix2 e u) = (V c main_arg9 : FVec Ideal S64x1 .f32) (ix2 e u) := by
  show (V c main_arg9 : FVec Ideal S64x1 .f32) (((cfg2.win 2).blk t).view.emb (ix2 e u)) = _
  rw [emb_w9]

theorem read_b (c : Dev nD) (t : Fin cfg2.N) (u : Fin 1) :
    (iblk2 V c 3 t : Vec Ideal S1 .f32) (ix1 u) = (V c main_arg10 : FVec Ideal S1 .f32) (ix1 u) := by
  show (V c main_arg10 : FVec Ideal S1 .f32) (((cfg2.win 3).blk t).view.emb (ix1 u)) = _
  rw [emb_b]

theorem read_w11 (c : Dev nD) (t : Fin cfg2.N) (e : Fin 64) (u : Fin 1) :
    (iblk2 V c 4 t : Vec Ideal S64x1 .f32) (ix2 e u) = (V c main_arg11 : FVec Ideal S64x1 .f32) (ix2 e u) := by
  show (V c main_arg11 : FVec Ideal S64x1 .f32) (((cfg2.win 4).blk t).view.emb (ix2 e u)) = _
  rw [emb_w11]

theorem read_o1 (G : FVec Ideal S100000x1 .f32) (t : Fin cfg2.N) (p : Fin 10000) (u : Fin 1) :
    ((cfg2.win 5).blk t).view.read (Elt Ideal) G (ix2 p u) = G (ix2 (row t p) u) := by
  show G (((cfg2.win 5).blk t).view.emb (ix2 p u)) = _
  rw [emb_o1]

theorem read_o2 (G : FVec Ideal S100000x1 .f32) (t : Fin cfg2.N) (p : Fin 10000) (u : Fin 1) :
    ((cfg2.win 6).blk t).view.read (Elt Ideal) G (ix2 p u) = G (ix2 (row t p) u) := by
  show G (((cfg2.win 6).blk t).view.emb (ix2 p u)) = _
  rw [emb_o2]

/-! ## What point `t` writes back is its block of the whole-array layer -/

theorem flushed_o1 (c : Dev nD) (t : Fin cfg2.N) :
    (dat2 V c).flushed 5 t = ((cfg2.win 5).blk t).view.read (Elt Ideal)
      (addf (F := Ideal) (lin1 (addf (V c main_v48_0) (V c main_v65)) (V c main_arg9)) (bias1 (V c main_arg10))) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S64x1) hz2, View.ld_unit_zero (S := S1) hz1]
  funext j
  obtain ⟨p, u, rfl⟩ : ∃ (p : Fin 10000) (u : Fin 1), j = ix2 p u := ⟨j 0, j 1, eq_ix2 j⟩
  refine (pay2_2_apply (iblk2 V c 0 t) (iblk2 V c 1 t) (iblk2 V c 2 t) (iblk2 V c 3 t) p u).trans ?_
  refine Eq.trans (congrArg₂ (· + ·)
    (Finset.sum_congr rfl fun e _ => congrArg₂ (· * ·) (congrArg₂ (· + ·) (read_x5 V c t p e) (read_x6 V c t p e)) (read_w9 V c t e u))
    (read_b V c t u)) ?_
  refine Eq.trans ?_ (read_o1 _ t p u).symm
  exact (summed_affine_apply _ _ _ _ (row t p) u).symm

theorem flushed_o2 (c : Dev nD) (t : Fin cfg2.N) :
    (dat2 V c).flushed 6 t = ((cfg2.win 6).blk t).view.read (Elt Ideal)
      (lin1 (F := Ideal) (addf (V c main_v48_0) (V c main_v65)) (V c main_arg11)) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S64x1) hz2]
  funext j
  obtain ⟨p, u, rfl⟩ : ∃ (p : Fin 10000) (u : Fin 1), j = ix2 p u := ⟨j 0, j 1, eq_ix2 j⟩
  refine (pay2_3_apply (iblk2 V c 0 t) (iblk2 V c 1 t) (iblk2 V c 4 t) p u).trans ?_
  refine Eq.trans (Finset.sum_congr rfl fun e _ =>
    congrArg₂ (· * ·) (congrArg₂ (· + ·) (read_x5 V c t p e) (read_x6 V c t p e)) (read_w11 V c t e u)) ?_
  refine Eq.trans ?_ (read_o2 _ t p u).symm
  exact (summed_linear_apply _ _ _ (row t p) u).symm

/-! ## The ten row blocks tile the rows -/

theorem mem_o1 (t : Fin cfg2.N) (i : S100000x1.Idx) :
    i ∈ ((cfg2.win 5).blk t).view.set ↔ ∀ a : Fin 2, win2_5.index t a * S10000x1.size a ≤ (i a).val ∧ (i a).val < win2_5.index t a * S10000x1.size a + S10000x1.size a := by
  show i ∈ ((View.whole main_v66_0).slice (win2_5.rect t)).set ↔ _
  rw [View.set_slice_whole, Rect.mem_set_unit]
  exact Iff.rfl

theorem mem_o2 (t : Fin cfg2.N) (i : S100000x1.Idx) :
    i ∈ ((cfg2.win 6).blk t).view.set ↔ ∀ a : Fin 2, win2_6.index t a * S10000x1.size a ≤ (i a).val ∧ (i a).val < win2_6.index t a * S10000x1.size a + S10000x1.size a := by
  show i ∈ ((View.whole main_v66_1).slice (win2_6.rect t)).set ↔ _
  rw [View.set_slice_whole, Rect.mem_set_unit]
  exact Iff.rfl

/-- The point whose block holds row `r` is `r / 10000`. -/
def pointOf (i : S100000x1.Idx) : Fin cfg2.N :=
  ⟨(i 0).val / 10000, by have hN : cfg2.N = 10 := N_2; have h : (i 0).val < 100000 := (i 0).isLt; omega⟩

theorem cover_o1 (i : S100000x1.Idx) : ∃ t : Fin cfg2.N, (cfg2.win 5).flush t = true ∧ i ∈ ((cfg2.win 5).blk t).view.set := by
  obtain ⟨-, -, -, -, -, -, -, -, -, h0, h1, -⟩ := idx (pointOf i)
  have hi1 : (i 1).val < 1 := (i 1).isLt
  have ht : (pointOf i).val = (i 0).val / 10000 := rfl
  refine ⟨pointOf i, flush2_5 _, ?_⟩
  rw [mem_o1]
  intro a
  match a with
  | ⟨0, _⟩ => show win2_5.index (pointOf i) (0 : Fin 2) * 10000 ≤ (i 0).val ∧ (i 0).val < win2_5.index (pointOf i) (0 : Fin 2) * 10000 + 10000; omega
  | ⟨1, _⟩ => show win2_5.index (pointOf i) (1 : Fin 2) * 1 ≤ (i 1).val ∧ (i 1).val < win2_5.index (pointOf i) (1 : Fin 2) * 1 + 1; omega

theorem cover_o2 (i : S100000x1.Idx) : ∃ t : Fin cfg2.N, (cfg2.win 6).flush t = true ∧ i ∈ ((cfg2.win 6).blk t).view.set := by
  obtain ⟨-, -, -, -, -, -, -, -, -, -, -, h0, h1⟩ := idx (pointOf i)
  have hi1 : (i 1).val < 1 := (i 1).isLt
  have ht : (pointOf i).val = (i 0).val / 10000 := rfl
  refine ⟨pointOf i, flush2_6 _, ?_⟩
  rw [mem_o2]
  intro a
  match a with
  | ⟨0, _⟩ => show win2_6.index (pointOf i) (0 : Fin 2) * 10000 ≤ (i 0).val ∧ (i 0).val < win2_6.index (pointOf i) (0 : Fin 2) * 10000 + 10000; omega
  | ⟨1, _⟩ => show win2_6.index (pointOf i) (1 : Fin 2) * 1 ≤ (i 1).val ∧ (i 1).val < win2_6.index (pointOf i) (1 : Fin 2) * 1 + 1; omega

/-! ## The arrays after the launch -/

/-- The first output array ends as `(x₅ + x₆)·W + b` of the arrays the launch found. -/
theorem arr_o1 (c : Dev nD) :
    (dat2 V c).arrAt 5 cfg2.N = addf (F := Ideal) (lin1 (addf (V c main_v48_0) (V c main_v65)) (V c main_arg9)) (bias1 (V c main_arg10)) :=
  (dat2 V c).arrAt_eq_of_cover 5 _ (fun t _ => flushed_o1 V c t) cover_o1

/-- The second output array ends as `(x₅ + x₆)·W'` of the arrays the launch found. -/
theorem arr_o2 (c : Dev nD) :
    (dat2 V c).arrAt 6 cfg2.N = lin1 (F := Ideal) (addf (V c main_v48_0) (V c main_v65)) (V c main_arg11) :=
  (dat2 V c).arrAt_eq_of_cover 6 _ (fun t _ => flushed_o2 V c t) cover_o2

end Cert.Gcn.Third

end
-- ==== Proof.Fold.lean ====
/-
  The idealized kernel's result buffer is the network of the launched arguments.

  The result buffer's contents at the return are walked back through the segments. The last stretch of host operations
  makes it from the third launch's two outputs: the first output plus the convolution of the second. The third launch's
  outputs are the head's two dense maps of the sum of the second layer's two branches; those are the second launch's
  first output and the convolution branch the stretch before it made from the second launch's second output; the
  second launch reads the first layer's two branches side by side; the first layer's branches are the first launch's
  first output and the convolution branch made from its second output. Each launch's output arrays are whole-array
  layers of what the launch found, each stretch applies the reference's own host operations, and the buffers read
  along the way still hold the launched arguments or what the first stretch made of the edge list.
-/
import proofs.«138869_j22909355557015_1_alg».proof.Proof.Carry
import proofs.«138869_j22909355557015_1_alg».proof.Proof.Region0
import proofs.«138869_j22909355557015_1_alg».proof.Proof.Region1
import proofs.«138869_j22909355557015_1_alg».proof.Proof.Region2

set_option maxRecDepth 16384

noncomputable section

namespace Cert.KernelIdeal.Whole

open Cert.KernelIdeal Cert.KernelIdeal.Gen Cert.Gcn
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## After the first launch -/

/-- The first launch's first output: the first layer's dense branch. -/
theorem val4_x1 : W4 m ρ c (Proc.devRef .tc main_v29_0) = relu64 (F := Ideal) (addf (lin64 (m ((c : Thread nD τ).loc main_arg0)) (m ((c : Thread nD τ).loc main_arg1))) (bias64 (m ((c : Thread nD τ).loc main_arg2)))) := by
  refine (W4_arr m ρ c 4).trans ?_
  refine (Cert.Gcn.First.arr_o1 (V3 m ρ) c).trans ?_
  show relu64 (F := Ideal) (addf (lin64 (W3 m ρ c (Proc.devRef .tc main_arg0)) (W3 m ρ c (Proc.devRef .tc main_arg1))) (bias64 (W3 m ρ c (Proc.devRef .tc main_arg2)))) = _
  rw [val3_arg0, val3_arg1, val3_arg2]

/-- The first launch's second output: the features the first convolution gathers. -/
theorem val4_h1 : W4 m ρ c (Proc.devRef .tc main_v29_1) = lin64 (F := Ideal) (m ((c : Thread nD τ).loc main_arg0)) (m ((c : Thread nD τ).loc main_arg3)) := by
  refine (W4_arr m ρ c 5).trans ?_
  refine (Cert.Gcn.First.arr_o2 (V3 m ρ) c).trans ?_
  show lin64 (F := Ideal) (W3 m ρ c (Proc.devRef .tc main_arg0)) (W3 m ρ c (Proc.devRef .tc main_arg3)) = _
  rw [val3_arg0, val3_arg3]

/-! ## The first layer -/

/-- The stretches after the first launch: the convolution branch, `max · 0`, then the two branches side by side. -/
theorem val7_x3 : W7 m ρ c (Proc.devRef .tc main_v47) = (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) := by
  refine (join_one (W6 m ρ c)).trans ?_
  have h29 : W6 m ρ c (Proc.devRef .tc main_v29_0) = W4 m ρ c (Proc.devRef .tc main_v29_0) :=
    (relu_one_keeps (W5 m ρ c)).trans (conv_one_keeps (W4 m ρ c))
  have h46 : W6 m ρ c (Proc.devRef .tc main_v46) = relu64 (F := Ideal) (W5 m ρ c (Proc.devRef .tc main_v45)) := relu_one (W5 m ρ c)
  have h45 : W5 m ρ c (Proc.devRef .tc main_v45)
      = agg64 (F := Ideal) (W4 m ρ c (Proc.devRef .tc main_v29_1)) (W4 m ρ c (Proc.devRef .tc main_v1)) (W4 m ρ c (Proc.devRef .tc main_v3)) (W4 m ρ c (Proc.devRef .tc main_v28)) (W4 m ρ c (Proc.devRef .tc main_arg4)) :=
    conv_one (W4 m ρ c)
  rw [h29, h46, h45, val4_x1, val4_h1, val4_v1, val4_v3, val4_v28, val4_arg4]
  rfl

/-! ## After the second launch -/

theorem val8_x5 : W8 m ρ c (Proc.devRef .tc main_v48_0) = (relu64 (F := Ideal) (addf (lin64 (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) (m ((c : Thread nD τ).loc main_arg5))) (bias64 (m ((c : Thread nD τ).loc main_arg6))))) := by
  refine (W8_arr m ρ c 4).trans ?_
  refine (Cert.Gcn.Second.arr_o1 (V7 m ρ) c).trans ?_
  show relu64 (F := Ideal) (addf (lin64 (W7 m ρ c (Proc.devRef .tc main_v47)) (W7 m ρ c (Proc.devRef .tc main_arg5))) (bias64 (W7 m ρ c (Proc.devRef .tc main_arg6)))) = _
  rw [val7_x3, val7_arg5, val7_arg6]

theorem val8_h2 : W8 m ρ c (Proc.devRef .tc main_v48_1) = (lin64 (F := Ideal) (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) (m ((c : Thread nD τ).loc main_arg7))) := by
  refine (W8_arr m ρ c 5).trans ?_
  refine (Cert.Gcn.Second.arr_o2 (V7 m ρ) c).trans ?_
  show lin64 (F := Ideal) (W7 m ρ c (Proc.devRef .tc main_v47)) (W7 m ρ c (Proc.devRef .tc main_arg7)) = _
  rw [val7_x3, val7_arg7]

/-! ## The second layer's convolution branch -/

theorem val10_x6 : W10 m ρ c (Proc.devRef .tc main_v65) = (relu64 (F := Ideal) (agg64 (lin64 (F := Ideal) (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) (m ((c : Thread nD τ).loc main_arg7))) (src (m ((c : Thread nD τ).loc main_arg13))) (dst (m ((c : Thread nD τ).loc main_arg13))) (edgeWeight (m ((c : Thread nD τ).loc main_arg13))) (m ((c : Thread nD τ).loc main_arg8)))) := by
  have h65 : W10 m ρ c (Proc.devRef .tc main_v65) = relu64 (F := Ideal) (W9 m ρ c (Proc.devRef .tc main_v64)) := relu_two (W9 m ρ c)
  have h64 : W9 m ρ c (Proc.devRef .tc main_v64)
      = agg64 (F := Ideal) (W8 m ρ c (Proc.devRef .tc main_v48_1)) (W8 m ρ c (Proc.devRef .tc main_v1)) (W8 m ρ c (Proc.devRef .tc main_v3)) (W8 m ρ c (Proc.devRef .tc main_v28)) (W8 m ρ c (Proc.devRef .tc main_arg8)) :=
    conv_two (W8 m ρ c)
  rw [h65, h64, val8_h2, val8_v1, val8_v3, val8_v28, val8_arg8]

/-- The second launch's first output is still there when the third launch starts. -/
theorem val10_x5 : W10 m ρ c (Proc.devRef .tc main_v48_0) = (relu64 (F := Ideal) (addf (lin64 (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) (m ((c : Thread nD τ).loc main_arg5))) (bias64 (m ((c : Thread nD τ).loc main_arg6))))) :=
  ((relu_two_keeps (W9 m ρ c)).trans (conv_two_keeps (W8 m ρ c))).trans (val8_x5 m ρ c)

/-! ## After the third launch -/

theorem val11_y0 : W11 m ρ c (Proc.devRef .tc main_v66_0) = addf (F := Ideal) (lin1 (addf (relu64 (F := Ideal) (addf (lin64 (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) (m ((c : Thread nD τ).loc main_arg5))) (bias64 (m ((c : Thread nD τ).loc main_arg6))))) (relu64 (F := Ideal) (agg64 (lin64 (F := Ideal) (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) (m ((c : Thread nD τ).loc main_arg7))) (src (m ((c : Thread nD τ).loc main_arg13))) (dst (m ((c : Thread nD τ).loc main_arg13))) (edgeWeight (m ((c : Thread nD τ).loc main_arg13))) (m ((c : Thread nD τ).loc main_arg8))))) (m ((c : Thread nD τ).loc main_arg9))) (bias1 (m ((c : Thread nD τ).loc main_arg10))) := by
  refine (W11_arr m ρ c 5).trans ?_
  refine (Cert.Gcn.Third.arr_o1 (V10 m ρ) c).trans ?_
  show addf (F := Ideal) (lin1 (addf (W10 m ρ c (Proc.devRef .tc main_v48_0)) (W10 m ρ c (Proc.devRef .tc main_v65))) (W10 m ρ c (Proc.devRef .tc main_arg9))) (bias1 (W10 m ρ c (Proc.devRef .tc main_arg10))) = _
  rw [val10_x5, val10_x6, val10_arg9, val10_arg10]

theorem val11_y1 : W11 m ρ c (Proc.devRef .tc main_v66_1) = lin1 (F := Ideal) (addf (relu64 (F := Ideal) (addf (lin64 (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) (m ((c : Thread nD τ).loc main_arg5))) (bias64 (m ((c : Thread nD τ).loc main_arg6))))) (relu64 (F := Ideal) (agg64 (lin64 (F := Ideal) (layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) (m ((c : Thread nD τ).loc main_arg7))) (src (m ((c : Thread nD τ).loc main_arg13))) (dst (m ((c : Thread nD τ).loc main_arg13))) (edgeWeight (m ((c : Thread nD τ).loc main_arg13))) (m ((c : Thread nD τ).loc main_arg8))))) (m ((c : Thread nD τ).loc main_arg11)) := by
  refine (W11_arr m ρ c 6).trans ?_
  refine (Cert.Gcn.Third.arr_o2 (V10 m ρ) c).trans ?_
  show lin1 (F := Ideal) (addf (W10 m ρ c (Proc.devRef .tc main_v48_0)) (W10 m ρ c (Proc.devRef .tc main_v65))) (W10 m ρ c (Proc.devRef .tc main_arg11)) = _
  rw [val10_x5, val10_x6, val10_arg11]

/-! ## The result -/

/-- The result buffer at the return is the network of the launched arguments: the last stretch adds the head's
    convolution branch to its dense branch. -/
theorem result_eq : W12 m ρ c (Proc.devRef .tc main_v82)
    = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (last_sum (W11 m ρ c)).trans ?_
  rw [val11_y0, val11_y1, val11_v1, val11_v3, val11_v28, val11_arg12]
  rfl

end Cert.KernelIdeal.Whole

end
-- ==== Proof.RefTerm.lean ====
/-
  The reference's result is the network of its arguments.

  The reference's run ends with its result buffer at the composition of its own host operations applied to the launched
  arguments. The network is that same composition with the shared pieces named once — the edge list's two rows, the
  degrees and the edge weights, a convolution, a dense layer — so the two are one term once the names are opened.
-/
import proofs.«138869_j22909355557015_1_alg».proof.Proof.RefRun
import proofs.«138869_j22909355557015_1_alg».proof.Proof.Glue

set_option maxRecDepth 16384

noncomputable section

namespace Cert.Gcn

open Cert.ReferenceIdeal Cert.ReferenceIdeal.Gen Idealize.ShloMosaic Idealize.ShloMosaic.TcCoe Idealize.SL.Sem

variable {F : FTy → Type} [FloatOps F]

set_option maxHeartbeats 4000000 in
theorem ref_result (m : (ℓ : Loc nD τ sig) → Buf (Elt F) ℓ) (c : Dev nD) :
    Cert.ReferenceIdeal.ValueP.res_main_v97 m c
      = network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.ValueP.res_main_v97
  rfl

end Cert.Gcn

end
-- ==== Proof.lean ====
/-
  A three-layer graph network on 100000 nodes and 1200000 edges: the kernel and its jnp reference agree at the exact
  extended reals.

  Both programs compute, from the edge list, each edge's symmetric weight `deg(source)^(-1/2) · deg(target)^(-1/2)`
  (zero where a degree is zero), and then three stages. A stage applies a dense map `x·W (+ b)` on one branch and, on
  the other, a graph convolution of `x·W'`: gather the rows at the edges' sources, weight them, add them up at the
  targets, add a bias. The reference computes every `x·W` as one product over all 100000 rows. The kernel computes the
  six products in three launches of ten grid points, each point taking 10000 rows (with the factors narrowed to
  bf16, which is the identity at the exact reals, and the products accumulated from zero); everything between the
  launches — the degrees, the weights, the gathers, the scatters, the biases, the joins — is the reference's own
  sequence of host operations.

  So the proof has three parts. Each launch's output arrays are the whole-array dense layers of what the launch finds
  in memory: row `p` of point `t`'s block is row `10000·t + p` of the array, the entry there is the same sum
  `∑ e, x (r, e) · W (e, q)` on both sides, and the ten blocks tile the rows. The kernel's result buffer, walked back
  through its twelve segments, is then the network of the launched arguments; the reference's result is the same
  network by unfolding. No law beyond the two products being the same sum is used, so the precondition (finite float
  inputs) is never opened. The frames are the generated ones; nothing was rewritten when the kernel was idealized.
-/
import proofs.«138869_j22909355557015_1_alg».proof.Defs
import proofs.«138869_j22909355557015_1_alg».proof.Proof.Gen.Kernel
import proofs.«138869_j22909355557015_1_alg».proof.Proof.Gen.Kernel.Frame
import proofs.«138869_j22909355557015_1_alg».proof.Proof.Gen.KernelIdeal
import proofs.«138869_j22909355557015_1_alg».proof.Proof.Gen.KernelIdeal.Frame
import proofs.«138869_j22909355557015_1_alg».proof.Proof.Gen.ReferenceIdeal
import proofs.«138869_j22909355557015_1_alg».proof.Proof.Gen.Pre_finite_inputs
import proofs.«138869_j22909355557015_1_alg».proof.Proof.KernelRun
import proofs.«138869_j22909355557015_1_alg».proof.Proof.Fold
import proofs.«138869_j22909355557015_1_alg».proof.Proof.RefRun
import proofs.«138869_j22909355557015_1_alg».proof.Proof.RefTerm
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the network of the arguments, which agree. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Whole.result_eq m ρ c), (h c).2⟩)
      (Cert.KernelIdeal.Whole.run_result m ρ)
  · refine (θ_run Cert.ReferenceIdeal.defs _ _).mono (fun r h c => ⟨(h c).1.trans ?_, (h c).2⟩)
      (Cert.ReferenceIdeal.ValueP.run (F := Ideal) m' ρ')
    rw [Cert.Gcn.ref_result, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
